-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024x1 : Shape := ⟨2, ![1024, 1]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S8192x1024 .f32) (main_arg1 : FVec F S1024x1024 .f32) (main_arg2 : FVec F S1024x1024 .f32) (main_arg3 : FVec F S1024x1 .f32) (main_arg4 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1024x1 : Shape := ⟨2, ![1024, 1]⟩
abbrev S4096x1024 : Shape := ⟨2, ![4096, 1024]⟩
abbrev S1024x2048 : Shape := ⟨2, ![1024, 2048]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩
abbrev S4096x1 : Shape := ⟨2, ![4096, 1]⟩
abbrev S4096 : Shape := ⟨1, ![4096]⟩
abbrev S1x4096 : Shape := ⟨2, ![1, 4096]⟩
abbrev S8192x4096 : Shape := ⟨2, ![8192, 4096]⟩
abbrev S1x512 : Shape := ⟨2, ![1, 512]⟩
abbrev S1024x512 : Shape := ⟨2, ![1024, 512]⟩

abbrev nBuf : Space → Nat
  | .hbm => 16
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1, .f32⟩
  | .hbm, ⟨4, _⟩ => ⟨S4096x1024, .f32⟩
  | .hbm, ⟨5, _⟩ => ⟨S1024x2048, .f32⟩
  | .hbm, ⟨6, _⟩ => ⟨S1024x2048, .bf16⟩
  | .hbm, ⟨7, _⟩ => ⟨S1024x1024, .bf16⟩
  | .hbm, ⟨8, _⟩ => ⟨S4096x1024, .bf16⟩
  | .hbm, ⟨9, _⟩ => ⟨S1x1024, .f32⟩
  | .hbm, ⟨10, _⟩ => ⟨S8192x1024, .bf16⟩
  | .hbm, ⟨11, _⟩ => ⟨S8192x1, .f32⟩
  | .hbm, ⟨12, _⟩ => ⟨S4096x1, .f32⟩
  | .hbm, ⟨13, _⟩ => ⟨S4096, .f32⟩
  | .hbm, ⟨14, _⟩ => ⟨S1x4096, .f32⟩
  | .hbm, ⟨15, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1, .f32⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S512x1, .f32⟩
  | .local _ .vmem, ⟨13, _⟩ => ⟨S512x1, .f32⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1, .f32⟩
  | .local _ .vmem, ⟨19, _⟩ => ⟨S1024x1, .f32⟩
  | .local _ .vmem, ⟨20, _⟩ => ⟨S1x512, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  concatenates_S1024x1024_S1024x1024_S1024x2048_d1 : Shape.Concatenates [S1024x1024, S1024x1024] S1024x2048 1
  bitsLt_bf16_f32 : FTy.bits .bf16 < FTy.bits .f32
  transposes_S1024x1_S1x1024_1_0 : S1024x1.Transposes [1, 0] S1x1024
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S512x2048_o0_0_S512x1024 : S512x2048.Slices ![0, 0] S512x1024
  slices_S512x2048_o0_1024_S512x1024 : S512x2048.Slices ![0, 1024] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1_S4096 : S4096x1.ShapeCasts S4096
  bcast_S4096_S1x4096_1 : S4096.BroadcastsInDim S1x4096 (![1] : Fin 1 → Fin S1x4096.rank)
  shapeCasts_S512x1024_S512x1024 : S512x1024.ShapeCasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .f32 = 32 ∨ (Rect.block (s := S4096x1) S512x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x1024.size a
  hwx2_1 : ∀ i : grid2.Coords, EltTy.bits .bf16 = 32 ∨ (Rect.block (s := S4096x1024) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .f32 = 32 ∨ (Rect.block (s := S1x4096) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S8192x4096.size a
  hwx2_4 : ∀ i : grid2.Coords, EltTy.bits .f32 = 32 ∨ (Rect.block (s := S8192x4096) S1024x512.size (cc2_transform_4 i) (hinb2_4 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg4) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1024x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x1 : Shape := ⟨2, ![1024, 1]⟩
abbrev S4096x1024 : Shape := ⟨2, ![4096, 1024]⟩
abbrev S_ : Shape := ⟨0, ![]⟩
abbrev S8192 : Shape := ⟨1, ![8192]⟩
abbrev S4096 : Shape := ⟨1, ![4096]⟩
abbrev S8192x1 : Shape := ⟨2, ![8192, 1]⟩
abbrev S1x4096 : Shape := ⟨2, ![1, 4096]⟩
abbrev S8192x4096 : Shape := ⟨2, ![8192, 4096]⟩
abbrev S1024x4096 : Shape := ⟨2, ![1024, 4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S8192x1, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S8192x1, .f32⟩
  | .hbm, ⟨25, _⟩ => ⟨S4096x1, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  reducesTo_S4096x1024_S4096_d1 : S4096x1024.ReducesTo [1] S4096
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x1024 : S_.BroadcastsInDim S8192x1024 (![] : Fin 0 → Fin S8192x1024.rank)
  transposes_S4096x1024_S1024x4096_1_0 : S4096x1024.Transposes [1, 0] S1024x4096
  transposes_S4096x1_S1x4096_1_0 : S4096x1.Transposes [1, 0] S1x4096
  dot_S8192x1024_S1024x1024_S8192x1024_1_0_0_1_n_n_wf : DotDims.WF S8192x1024 S1024x1024 S8192x1024 [1] [0] [0] [1] [] []
  dot_S4096x1024_S1024x1024_S4096x1024_1_0_0_1_n_n_wf : DotDims.WF S4096x1024 S1024x1024 S4096x1024 [1] [0] [0] [1] [] []
  dot_S8192x1024_S1024x4096_S8192x4096_1_0_0_1_n_n_wf : DotDims.WF S8192x1024 S1024x4096 S8192x4096 [1] [0] [0] [1] [] []
  dot_S8192x1024_S1024x1_S8192x1_1_0_0_1_n_n_wf : DotDims.WF S8192x1024 S1024x1 S8192x1 [1] [0] [0] [1] [] []
  dot_S4096x1024_S1024x1_S4096x1_1_0_0_1_n_n_wf : DotDims.WF S4096x1024 S1024x1 S4096x1 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.KernelRun.lean ====
/-
  The idealized kernel program's run, read at every buffer that outlives its regions.

  The program is five segments: host operations (the concatenation of the two weight matrices, three format
  changes, a transpose), the two bias kernels, two more host operations (the column of per-model biases recast as a
  row), and the final kernel. The generated frame module folds the buffer contents through these segments
  (`Gen.W5`: what every buffer holds when the last region is left) but states only that the arguments end
  unchanged. Here the same launch is read at EVERY unscoped buffer: each ends at `Gen.W5`, in particular the
  result.
-/
import proofs.«127352_j26637387170454_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every core ends
    at the contents the fold through the five segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run with the result named and the arguments kept: the post the value claim states. -/
theorem run_result : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)
    (run_all m ρ)

end Cert.KernelIdeal.Run

end
-- ==== Proof.Spec.lean ====
/-
  The value both programs compute, over the extended reals, as one function of the five argument arrays.

  For a batch row `b` of `x` and a model row `o` of `models`:
    out[b, o] = 2 · Σ_d (x·between)[b, d] · models[o, d]                       (the bilinear cross term)
              + ( Σ_d (x·within)[b, d] · x[b, d]  +  Σ_k x[b, k] · other[k] )       (the row bias of b)
              + ( Σ_d (models·within)[o, d] · models[o, d] + Σ_k models[o, k] · other[k] )   (the bias of o)
  The kernel adds the terms in this grouping; the reference groups them as
    ((quad b + quad o) + Σ_d (2 · (x·between)[b, d]) · models[o, d]) + (lin b + lin o).
  The two groupings agree on every extended real: addition is commutative and associative there, and the
  factor 2, a nonnegative real, distributes over any sum of extended reals.
-/
import Idealize.ShloMosaic.PureOps.Ideal
import Idealize.ShloMosaic.Lib.ValueIdx

noncomputable section

namespace Cert.Spec

open Idealize.ShloMosaic Idealize.ShloMosaic.ValueIdx

/-- An `a × b` array of extended reals, indexed as the printed programs index it. -/
abbrev Mat (a b : ℕ) : Type := (⟨2, ![a, b]⟩ : Shape).Idx → EReal

variable {n : ℕ}

/-- Entry `(r, d)` of the matrix product `a · w`. -/
def rowProd (a : Mat n 1024) (w : Mat 1024 1024) (r : Fin n) (d : Fin 1024) : EReal :=
  ∑ k : Fin 1024, a (ix2 r k) * w (ix2 k d)

/-- The quadratic form of row `r` of `a` in `w`: `Σ_d (a·w)[r, d] · a[r, d]`. -/
def quad (a : Mat n 1024) (w : Mat 1024 1024) (r : Fin n) : EReal :=
  ∑ d : Fin 1024, rowProd a w r d * a (ix2 r d)

/-- Row `r` of `a` against the column vector `o`. -/
def lin (a : Mat n 1024) (o : Mat 1024 1) (r : Fin n) : EReal :=
  ∑ k : Fin 1024, a (ix2 r k) * o (ix2 k (0 : Fin 1))

/-- The bias a row contributes: its quadratic form plus its linear term. -/
def bias (a : Mat n 1024) (w : Mat 1024 1024) (o : Mat 1024 1) (r : Fin n) : EReal :=
  quad a w r + lin a o r

/-- The binary32 pattern of `2.0`, read as an extended real. -/
def two : EReal := Ideal.ofBits .f32 0x40000000#32

/-- It is the real number 2. -/
theorem two_eq : two = ((2 : ℝ) : EReal) := by
  unfold two
  simp [Ideal.ofBits, Ideal.ieee, -EReal.coe_mul]; norm_num

theorem two_nonneg : 0 ≤ two := by rw [two_eq]; exact_mod_cast (by norm_num : (0 : ℝ) ≤ 2)

theorem two_ne_top : two ≠ ⊤ := by rw [two_eq]; exact EReal.coe_ne_top _

/-- The cross term of batch row `b` and model row `o`: `Σ_d (x·bw)[b, d] · m[o, d]`. -/
def cross (x : Mat 8192 1024) (bw : Mat 1024 1024) (m : Mat 4096 1024) (b : Fin 8192) (o : Fin 4096) : EReal :=
  ∑ d : Fin 1024, rowProd x bw b d * m (ix2 o d)

/-- The result at `(b, o)` in the kernel's grouping. -/
def kerAt (x : Mat 8192 1024) (w bw : Mat 1024 1024) (ov : Mat 1024 1) (m : Mat 4096 1024)
    (b : Fin 8192) (o : Fin 4096) : EReal :=
  (two * cross x bw m b o + bias x w ov b) + bias m w ov o

/-- The result at `(b, o)` in the reference's grouping. -/
def refAt (x : Mat 8192 1024) (w bw : Mat 1024 1024) (ov : Mat 1024 1) (m : Mat 4096 1024)
    (b : Fin 8192) (o : Fin 4096) : EReal :=
  ((quad x w b + quad m w o) + ∑ d : Fin 1024, (two * rowProd x bw b d) * m (ix2 o d)) + (lin x ov b + lin m ov o)

/-- A nonnegative real factor distributes over a finite sum of extended reals. -/
theorem mul_sum_of_nonneg {ι : Type} (s : Finset ι) (c : EReal) (hc : 0 ≤ c) (hc' : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- The two groupings are the same extended real. -/
theorem refAt_eq_kerAt (x : Mat 8192 1024) (w bw : Mat 1024 1024) (ov : Mat 1024 1) (m : Mat 4096 1024)
    (b : Fin 8192) (o : Fin 4096) : refAt x w bw ov m b o = kerAt x w bw ov m b o := by
  unfold refAt kerAt bias cross
  rw [mul_sum_of_nonneg _ two two_nonneg two_ne_top]
  simp only [mul_assoc]
  abel

/-- The whole result array: `kerAt` at the two coordinates of an index. -/
def G (x : Mat 8192 1024) (w bw : Mat 1024 1024) (ov : Mat 1024 1) (m : Mat 4096 1024) : Mat 8192 4096 :=
  fun j => kerAt x w bw ov m ⟨(j 0).val, (j 0).isLt⟩ ⟨(j 1).val, (j 1).isLt⟩

theorem G_ix2 (x : Mat 8192 1024) (w bw : Mat 1024 1024) (ov : Mat 1024 1) (m : Mat 4096 1024)
    (b : Fin 8192) (o : Fin 4096) : G x w bw ov m (ix2 b o) = kerAt x w bw ov m b o := rfl

end Cert.Spec

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.Payloads.lean ====
/-
  The stored payloads of the three kernel bodies, each read at an index written by coordinates, over the
  extended reals. A format change and a recast to the same shape are the identity there; a matrix product into a
  zero accumulator read at an entry is the sum over the one contracted coordinate of the operands' products; a lane
  sum of a matrix read at a row is the sum over that row; a row, a column or a scalar broadcast reads the entry it
  repeats. With these each payload is a closed expression in the entries of the arrays it was computed from.
-/
import proofs.«127352_j26637387170454_2_alg».proof.Proof.Gen.KernelIdeal.Skeleton
import proofs.«127352_j26637387170454_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws
noncomputable section
namespace Cert.KernelIdeal.Payloads
open Idealize.ShloMosaic Idealize.ShloMosaic.ValueIdx Cert.KernelIdeal Cert.KernelIdeal.Gen

/-- On its kept axis the left operand's index reads the result's row coordinate. -/
theorem dot0_lhs_kept (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl

/-- On its kept axis the right operand's index reads the result's column coordinate. -/
theorem dot0_rhs_kept (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- The first body's product `[512, 1024] · [1024, 2048]` into the zero accumulator, read at `(p, n)`: the sum over the
    contracted coordinate `k` of `a (p, k) · b (k, n)`. -/
theorem matmul0_apply (a : FVec Ideal S512x1024 .bf16) (b : FVec Ideal S1024x2048 .bf16) (p : Fin 512) (n : Fin 2048) :
    matmul dot_S512x1024_S1024x2048_S512x2048_1_0_0_1_n_n none a b (constant S512x2048 .f32 0x00000000#32) (ix2 p n)
      = ∑ k : Fin 1024, a (ix2 p k) * b (ix2 k n) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p n) ((contrEquiv1 dot_S512x1024_S1024x2048_S512x2048_1_0_0_1_n_n 1024 rfl rfl).symm k) = ix2 p k :=
    funext fun ax => Fin.ext (by
      match ax with
      | ⟨0, _⟩ => exact dot0_lhs_kept _ _
      | ⟨1, _⟩ => exact (dot_S512x1024_S1024x2048_S512x2048_1_0_0_1_n_n.lhsIdx_val_of_single rfl _ _).trans hk)
  have er : dot_S512x1024_S1024x2048_S512x2048_1_0_0_1_n_n.rhsIdx (ix2 p n) ((contrEquiv1 dot_S512x1024_S1024x2048_S512x2048_1_0_0_1_n_n 1024 rfl rfl).symm k) = ix2 k n :=
    funext fun ax => Fin.ext (by
      match ax with
      | ⟨0, _⟩ => exact (dot_S512x1024_S1024x2048_S512x2048_1_0_0_1_n_n.rhsIdx_val_of_single rfl _ _).trans hk
      | ⟨1, _⟩ => exact dot0_rhs_kept _ _)
  rw [el, er]

/-- On its kept axis the left operand's index reads the result's row coordinate. -/
theorem dot1_lhs_kept (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- On its kept axis the right operand's index reads the result's column coordinate. -/
theorem dot1_rhs_kept (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The second body's product `[512, 1024] · [1024, 1024]` into the zero accumulator, read at `(p, n)`: the sum over the
    contracted coordinate `k` of `a (p, k) · b (k, n)`. -/
theorem matmul1_apply (a : FVec Ideal S512x1024 .bf16) (b : FVec Ideal S1024x1024 .bf16) (p : Fin 512) (n : Fin 1024) :
    matmul dot_S512x1024_S1024x1024_S512x1024_1_0_0_1_n_n none a b (constant S512x1024 .f32 0x00000000#32) (ix2 p n)
      = ∑ k : Fin 1024, a (ix2 p k) * b (ix2 k n) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p n) ((contrEquiv1 dot_S512x1024_S1024x1024_S512x1024_1_0_0_1_n_n 1024 rfl rfl).symm k) = ix2 p k :=
    funext fun ax => Fin.ext (by
      match ax with
      | ⟨0, _⟩ => exact dot1_lhs_kept _ _
      | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p n) ((contrEquiv1 dot_S512x1024_S1024x1024_S512x1024_1_0_0_1_n_n 1024 rfl rfl).symm k) = ix2 k n :=
    funext fun ax => Fin.ext (by
      match ax with
      | ⟨0, _⟩ => exact (dot_S512x1024_S1024x1024_S512x1024_1_0_0_1_n_n.rhsIdx_val_of_single rfl _ _).trans hk
      | ⟨1, _⟩ => exact dot1_rhs_kept _ _)
  rw [el, er]

/-- On its kept axis the left operand's index reads the result's row coordinate. -/
theorem dot2_lhs_kept (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl

/-- On its kept axis the right operand's index reads the result's column coordinate. -/
theorem dot2_rhs_kept (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl

/-- The third body's product into the zero accumulator contracts the second axis of both operands (`a · bᵀ`): read at
    `(p, n)` it is the sum over `k` of `a (p, k) · b (n, k)`. -/
theorem matmul2_apply (a : FVec Ideal S1024x1024 .bf16) (b : FVec Ideal S512x1024 .bf16) (p : Fin 1024) (n : Fin 512) :
    matmul dot_S1024x1024_S512x1024_S1024x512_1_1_0_0_n_n none a b (constant S1024x512 .f32 0x00000000#32) (ix2 p n)
      = ∑ k : Fin 1024, a (ix2 p k) * b (ix2 n k) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p n) ((contrEquiv1 dot_S1024x1024_S512x1024_S1024x512_1_1_0_0_n_n 1024 rfl rfl).symm k) = ix2 p k :=
    funext fun ax => Fin.ext (by
      match ax with
      | ⟨0, _⟩ => exact dot2_lhs_kept _ _
      | ⟨1, _⟩ => exact (dot_S1024x1024_S512x1024_S1024x512_1_1_0_0_n_n.lhsIdx_val_of_single rfl _ _).trans hk)
  have er : dot_S1024x1024_S512x1024_S1024x512_1_1_0_0_n_n.rhsIdx (ix2 p n) ((contrEquiv1 dot_S1024x1024_S512x1024_S1024x512_1_1_0_0_n_n 1024 rfl rfl).symm k) = ix2 n k :=
    funext fun ax => Fin.ext (by
      match ax with
      | ⟨1, _⟩ => exact (dot_S1024x1024_S512x1024_S1024x512_1_1_0_0_n_n.rhsIdx_val_of_single rfl _ _).trans hk
      | ⟨0, _⟩ => exact dot2_rhs_kept _ _)
  rw [el, er]

/-- The lane sum of a `[512, 1024]` matrix from the zero word, read at row `p`: the sum over `d` of the matrix at
    `(p, d)` (the reduced index with `d` inserted on the summed axis is `(p, d)`, coordinate by coordinate). -/
theorem laneSum_apply (v : FVec Ideal S512x1024 .f32) (hφ : FKind.Formats .f32)
    (hacc : (0x00000000#32 : BitVec 32) = FKind.add.neutral .f32 hφ) (p : Fin 512) :
    multiReduction .add [1] S512 v 0x00000000#32 reduces_S512x1024_S512 hφ hacc (ix1 p)
      = ∑ d : Fin 1024, v (ix2 p d) := by
  refine (Ideal.multiReduction_add_single v _ reduces_S512x1024_S512 hφ hacc (ix1 p)).trans ?_
  refine Finset.sum_congr rfl fun d _ => congrArg v ?_
  funext ax
  apply Fin.ext
  match ax with
  | ⟨0, _⟩ => rfl
  | ⟨1, _⟩ => rfl

/-- The same lane sum kept as a column `[512, 1]`, read at `(p, u)`. -/
theorem laneSumCol_apply (v : FVec Ideal S512x1024 .f32) (hφ : FKind.Formats .f32)
    (hacc : (0x00000000#32 : BitVec 32) = FKind.add.neutral .f32 hφ) (p : Fin 512) (u : Fin 1) :
    shapeCast S512x1 (multiReduction .add [1] S512 v 0x00000000#32 reduces_S512x1024_S512 hφ hacc)
        shapeCasts_S512_S512x1 (ix2 p u)
      = ∑ d : Fin 1024, v (ix2 p d) :=
  (Cert.LibKeepdims.shapeCast_a_a1_apply _ shapeCasts_S512_S512x1 p u).trans (laneSum_apply v hφ hacc p)

/-! ## The first body -/

/-- The first body's product of `x0` (narrowed, which changes no extended real) with the `[1024, 2048]` array, at
    `(p, n)`. -/
theorem pay0_mm (x0 : Vec Ideal S512x1024 .f32) (x1 : Vec Ideal S1024x2048 .bf16) (p : Fin 512) (n : Fin 2048) :
    k0_pay1 (F := Ideal) x0 x1 (ix2 p n) = ∑ k : Fin 1024, x0 (ix2 p k) * x1 (ix2 k n) := by
  unfold k0_pay1
  refine (matmul0_apply _ _ p n).trans ?_
  refine Finset.sum_congr rfl fun k _ => ?_
  exact congrArg₂ (· * ·) (truncf_apply _ _ _) (congrFun (shapeCast_self x1 _) _)

/-- The stored right half: columns `1024 + q` of the product. -/
theorem pay0_xb (x0 : Vec Ideal S512x1024 .f32) (x1 : Vec Ideal S1024x2048 .bf16) (p : Fin 512) (q : Fin 1024) :
    k0_pay3 (F := Ideal) x0 x1 (ix2 p q)
      = ∑ k : Fin 1024, x0 (ix2 p k) * x1 (ix2 k (⟨1024 + q.val, by omega⟩ : Fin 2048)) := by
  unfold k0_pay3
  refine (truncf_apply (ψ := .bf16) (φ := .f32) _ bitsLt_bf16_f32 (ix2 p q)).trans ?_
  refine (slice2_axis1_apply 1024 (k0_pay1 (F := Ideal) x0 x1) slices_S512x2048_o0_1024_S512x1024 p q
    ⟨1024 + q.val, by omega⟩ rfl).trans ?_
  exact pay0_mm x0 x1 p _

/-- The row `[1, 1024]`, recast twice to its own shape and broadcast over the rows, read at `(p, d)`. -/
theorem rowBcast_apply (x2 : Vec Ideal S1x1024 .f32) (p : Fin 512) (d : Fin 1024) :
    broadcastTo S512x1024 (shapeCast S1x1024 (shapeCast S1x1024 x2 shapeCasts_S1x1024_S1x1024)
        shapeCasts_S1x1024_S1x1024) broadcasts_S1x1024_S512x1024 (ix2 p d)
      = x2 (ix2 (0 : Fin 1) d) :=
  (broadcastTo_1b_ab_apply _ broadcasts_S1x1024_S512x1024 p d).trans
    (congrFun ((shapeCast_self _ _).trans (shapeCast_self x2 _)) _)

/-- The stored bias column of the first body: the quadratic form of row `p` in the left half of the product, plus the
    row against the `[1, 1024]` vector. -/
theorem pay0_bias (x0 : Vec Ideal S512x1024 .f32) (x1 : Vec Ideal S1024x2048 .bf16) (x2 : Vec Ideal S1x1024 .f32)
    (p : Fin 512) (u : Fin 1) :
    k0_pay2 (F := Ideal) x0 x1 x2 (ix2 p u)
      = (∑ d : Fin 1024, (∑ k : Fin 1024, x0 (ix2 p k) * x1 (ix2 k (⟨d.val, by omega⟩ : Fin 2048))) * x0 (ix2 p d))
        + ∑ d : Fin 1024, x0 (ix2 p d) * x2 (ix2 (0 : Fin 1) d) := by
  unfold k0_pay2
  refine (addf_apply _ _ (ix2 p u)).trans ?_
  refine congrArg₂ (· + ·) ?_ ?_
  · refine (laneSumCol_apply _ _ _ p u).trans ?_
    refine Finset.sum_congr rfl fun d _ => ?_
    refine (mulf_apply _ _ _).trans ?_
    refine congrArg (· * x0 (ix2 p d)) ?_
    refine (slice2_axis1_apply 0 (k0_pay1 (F := Ideal) x0 x1) slices_S512x2048_o0_0_S512x1024 p d
      ⟨d.val, by omega⟩ (Nat.zero_add _).symm).trans ?_
    exact pay0_mm x0 x1 p _
  · refine (laneSumCol_apply _ _ _ p u).trans ?_
    refine Finset.sum_congr rfl fun d _ => ?_
    refine (mulf_apply _ _ _).trans ?_
    exact congrArg (x0 (ix2 p d) * ·) (rowBcast_apply x2 p d)

/-! ## The second body -/

/-- The stored bias column of the second body: the quadratic form of row `p` in the `[1024, 1024]` array, plus the row
    against the `[1, 1024]` vector. -/
theorem pay1_bias (x0 : Vec Ideal S512x1024 .f32) (x1 : Vec Ideal S1024x1024 .bf16) (x2 : Vec Ideal S1x1024 .f32)
    (p : Fin 512) (u : Fin 1) :
    k1_pay1 (F := Ideal) x0 x1 x2 (ix2 p u)
      = (∑ d : Fin 1024, (∑ k : Fin 1024, x0 (ix2 p k) * x1 (ix2 k d)) * x0 (ix2 p d))
        + ∑ d : Fin 1024, x0 (ix2 p d) * x2 (ix2 (0 : Fin 1) d) := by
  unfold k1_pay1
  refine (addf_apply _ _ (ix2 p u)).trans ?_
  refine congrArg₂ (· + ·) ?_ ?_
  · refine (laneSumCol_apply _ _ _ p u).trans ?_
    refine Finset.sum_congr rfl fun d _ => ?_
    refine (mulf_apply _ _ _).trans ?_
    refine congrArg (· * x0 (ix2 p d)) ?_
    refine (matmul1_apply _ _ p d).trans ?_
    refine Finset.sum_congr rfl fun k _ => ?_
    exact congrArg₂ (· * ·) (truncf_apply _ _ _) (congrFun (shapeCast_self x1 _) _)
  · refine (laneSumCol_apply _ _ _ p u).trans ?_
    refine Finset.sum_congr rfl fun d _ => ?_
    refine (mulf_apply _ _ _).trans ?_
    exact congrArg (x0 (ix2 p d) * ·) (rowBcast_apply x2 p d)

/-! ## The third body -/

/-- The stored block of the third body: twice the cross product `x0 · x1ᵀ` at `(p, q)`, plus the column entry of row
    `p`, plus the row entry of column `q`. -/
theorem pay2_out (x0 : Vec Ideal S1024x1024 .bf16) (x1 : Vec Ideal S512x1024 .bf16) (x2 : Vec Ideal S1024x1 .f32)
    (x3 : Vec Ideal S1x512 .f32) (p : Fin 1024) (q : Fin 512) :
    k2_pay1 (F := Ideal) x0 x1 x2 x3 (ix2 p q)
      = (Ideal.ofBits .f32 0x40000000#32 * (∑ k : Fin 1024, x0 (ix2 p k) * x1 (ix2 q k)) + x2 (ix2 p (0 : Fin 1)))
        + x3 (ix2 (0 : Fin 1) q) := by
  unfold k2_pay1
  refine (addf_apply _ _ (ix2 p q)).trans ?_
  refine congrArg₂ (· + ·) ?_ ?_
  · refine (addf_apply _ _ (ix2 p q)).trans ?_
    refine congrArg₂ (· + ·) ?_ ?_
    · refine (mulf_apply _ _ (ix2 p q)).trans ?_
      refine congrArg₂ (· * ·) rfl ?_
      refine (matmul2_apply _ _ p q).trans ?_
      refine Finset.sum_congr rfl fun k _ => ?_
      exact congrArg₂ (· * ·) (congrFun (shapeCast_self x0 _) _) (congrFun (shapeCast_self x1 _) _)
    · refine (Cert.LibKeepdims.broadcastTo_a1_ab_apply _ broadcasts_S1024x1_S1024x512 p q).trans ?_
      exact congrFun ((shapeCast_self _ _).trans (shapeCast_self x2 _)) _
  · refine (broadcastTo_1b_ab_apply _ broadcasts_S1x512_S1024x512 p q).trans ?_
    exact congrFun ((shapeCast_self _ _).trans (shapeCast_self x3 _)) _

end Cert.KernelIdeal.Payloads

end
-- ==== Proof.Region0.lean ====
/-
  What the first kernel leaves in its two output arrays, for ANY contents `V` the buffers hold when the region is
  entered.

  The grid has 16 points; point `t` handles rows `512·t … 512·t + 511` of `x` (window 0), with the whole
  concatenated weight matrix `[within | between]` (window 1) and the whole row vector `otherᵀ` (window 2).
  It writes back rows `512·t …` of two arrays:
    * window 3: `(x · between)[r, d] = Σ_k x[r, k] · wcat[k, 1024 + d]`;
    * window 4: the row bias `Σ_d (Σ_k x[r, k] · wcat[k, d]) · x[r, d] + Σ_d x[r, d] · otherᵀ[0, d]`.
  The 16 row blocks tile each array, so each array ends as ONE function of the entry contents.
-/
import proofs.«127352_j26637387170454_2_alg».proof.Proof.Gen.KernelIdeal.Frame
import proofs.«127352_j26637387170454_2_alg».proof.Proof.Spec
import proofs.«127352_j26637387170454_2_alg».proof.Proof.Payloads
import Idealize.ShloMosaic.Lib.Pipeline.Value
import Idealize.ShloMosaic.Lib.ValueIdx

set_option maxRecDepth 16384

noncomputable section

namespace Cert.KernelIdeal.Reg0

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- `(x · wcat)[r, 1024 + d]`: the product with the right half of the concatenated weights. -/
def xbOf (X : Mat 8192 1024) (Wc : Mat 1024 2048) : Mat 8192 1024 := fun i =>
  ∑ k : Fin 1024, X (ix2 ⟨(i 0).val, idx2_lt0 i⟩ k) * Wc (ix2 k ⟨1024 + (i 1).val, by have := idx2_lt1 i; omega⟩)

/-- The row bias from the left half of the concatenated weights and the row vector `orow`. -/
def rowbiasOf (X : Mat 8192 1024) (Wc : Mat 1024 2048) (orow : Mat 1 1024) : Mat 8192 1 := fun i =>
  (∑ d : Fin 1024, (∑ k : Fin 1024, X (ix2 ⟨(i 0).val, idx2_lt0 i⟩ k) * Wc (ix2 k ⟨d.val, by have := d.isLt; omega⟩)) * X (ix2 ⟨(i 0).val, idx2_lt0 i⟩ d))
    + ∑ d : Fin 1024, X (ix2 ⟨(i 0).val, idx2_lt0 i⟩ d) * orow (ix2 (0 : Fin 1) d)

/-- The printed index maps over the 16 points: the row-blocked windows sit at block row `t`, the resident ones at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Window 0's block at point `t` is rows `512·t …` of `x`. -/
theorem iblk0_0_apply (c : Dev nD) (t : Fin cfg0.N) (y : S512x1024.Idx) (i : S8192x1024.Idx)
    (h0 : (i 0).val = 512 * t.val + (y 0).val) (h1 : (i 1).val = (y 1).val) :
    (iblk0 V c 0 t : S512x1024.Idx → EReal) y = (V c main_arg0 : S8192x1024.Idx → EReal) i := by
  obtain ⟨e0, e1, -⟩ := idx_facts t
  unfold iblk0
  rw [View.read_apply]
  show (V c main_arg0 : S8192x1024.Idx → EReal) _ = _
  refine congrArg _ (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 1024 + 1 * (y 1).val = (i 1).val; rw [e1, h1]; omega

/-- Window 1's block at every point is the whole concatenated weight matrix. -/
theorem iblk0_1_apply (c : Dev nD) (t : Fin cfg0.N) (y : S1024x2048.Idx) :
    (iblk0 V c 1 t : S1024x2048.Idx → EReal) y = (V c main_v1 : S1024x2048.Idx → EReal) y := by
  obtain ⟨-, -, e0, e1, -⟩ := idx_facts t
  unfold iblk0
  rw [View.read_apply]
  show (V c main_v1 : S1024x2048.Idx → EReal) _ = _
  refine congrArg _ (funext fun a => Fin.ext ?_)
  match a with
  | ⟨0, _⟩ => show win0_1.index t (0 : Fin 2) * 1024 + 1 * (y 0).val = (y 0).val; rw [e0]; omega
  | ⟨1, _⟩ => show win0_1.index t (1 : Fin 2) * 2048 + 1 * (y 1).val = (y 1).val; rw [e1]; omega

/-- Window 2's block at every point is the whole row vector. -/
theorem iblk0_2_apply (c : Dev nD) (t : Fin cfg0.N) (y : S1x1024.Idx) :
    (iblk0 V c 2 t : S1x1024.Idx → EReal) y = (V c main_v4 : S1x1024.Idx → EReal) y := by
  obtain ⟨-, -, -, -, e0, e1, -⟩ := idx_facts t
  unfold iblk0
  rw [View.read_apply]
  show (V c main_v4 : S1x1024.Idx → EReal) _ = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- Window 3 at a point: the stored block, at in-block index `y`, is `xbOf` at the array index `i` of row
    `512·T + y₀` and column `y₁`, when the loaded blocks are those rows of `X` and the whole `Wc`. -/
theorem pay3_point (x0 : Vec Ideal S512x1024 .f32) (x1 : Vec Ideal S1024x2048 .bf16) (X : Mat 8192 1024) (Wc : Mat 1024 2048)
    (T : ℕ) (h0 : ∀ (y : S512x1024.Idx) (i : S8192x1024.Idx), (i 0).val = 512 * T + (y 0).val → (i 1).val = (y 1).val → x0 y = X i)
    (h1 : ∀ y : S1024x2048.Idx, x1 y = Wc y)
    (y : S512x1024.Idx) (i : S8192x1024.Idx) (hi0 : (i 0).val = 512 * T + (y 0).val) (hi1 : (i 1).val = (y 1).val) :
    k0_pay3 (F := Ideal) x0 x1 y = xbOf X Wc i := by
  obtain ⟨p, q, rfl⟩ : ∃ (p : Fin 512) (q : Fin 1024), y = ix2 p q := ⟨y 0, y 1, eq_ix2 y⟩
  refine (Payloads.pay0_xb x0 x1 p q).trans ?_
  unfold xbOf
  refine Finset.sum_congr rfl fun k _ => ?_
  rw [h0 (ix2 p k) (ix2 ⟨(i 0).val, idx2_lt0 i⟩ k) hi0 rfl, h1]
  refine congrArg (_ * Wc ·) (funext fun a => Fin.ext ?_)
  match a with
  | ⟨0, _⟩ => rfl
  | ⟨1, _⟩ => show 1024 + q.val = 1024 + (i 1).val; rw [hi1]

/-- Window 4 at a point: the stored column block at `y` is `rowbiasOf` at row `512·T + y₀`. -/
theorem pay2_point (x0 : Vec Ideal S512x1024 .f32) (x1 : Vec Ideal S1024x2048 .bf16) (x2 : Vec Ideal S1x1024 .f32)
    (X : Mat 8192 1024) (Wc : Mat 1024 2048) (orow : Mat 1 1024)
    (T : ℕ) (h0 : ∀ (y : S512x1024.Idx) (i : S8192x1024.Idx), (i 0).val = 512 * T + (y 0).val → (i 1).val = (y 1).val → x0 y = X i)
    (h1 : ∀ y : S1024x2048.Idx, x1 y = Wc y) (h2 : ∀ y : S1x1024.Idx, x2 y = orow y)
    (y : S512x1.Idx) (i : S8192x1.Idx) (hi0 : (i 0).val = 512 * T + (y 0).val) :
    k0_pay2 (F := Ideal) x0 x1 x2 y = rowbiasOf X Wc orow i := by
  obtain ⟨p, u, rfl⟩ : ∃ (p : Fin 512) (u : Fin 1), y = ix2 p u := ⟨y 0, y 1, eq_ix2 y⟩
  refine (Payloads.pay0_bias x0 x1 x2 p u).trans ?_
  unfold rowbiasOf
  have hx : ∀ k : Fin 1024, x0 (ix2 p k) = X (ix2 ⟨(i 0).val, idx2_lt0 i⟩ k) := fun k =>
    h0 (ix2 p k) (ix2 ⟨(i 0).val, idx2_lt0 i⟩ k) hi0 rfl
  refine congrArg₂ (· + ·) (Finset.sum_congr rfl fun d _ => ?_) (Finset.sum_congr rfl fun d _ => ?_)
  · rw [hx d]
    refine congrArg (· * _) (Finset.sum_congr rfl fun k _ => ?_)
    rw [hx k, h1]
  · rw [hx d, h2]

/-- WHAT POINT `t` WRITES BACK through window 3 is block `t` of `xbOf` of the entry contents. -/
theorem flushed0_3 (c : Dev nD) (t : Fin cfg0.N) :
    (dat0 V c).flushed 3 t = ((cfg0.win 3).blk t).view.read (Elt Ideal) (xbOf (V c main_arg0) (V c main_v1)) := by
  obtain ⟨-, -, -, -, -, -, e0, e1, -⟩ := idx_facts t
  show (cfg0.win 3).cut (grid0.coords t) ((dat0 V c).after 3 t) = _
  rw [after0_3]
  unfold out0_3
  rw [View.canon_unit_zero hz]
  simp only [View.ld_unit_zero (S := S512x1024) hz, View.ld_unit_zero (S := S1024x2048) hz]
  funext y
  refine pay3_point _ _ _ _ t.val (fun y i h0 h1 => iblk0_0_apply V c t y i h0 h1) (fun y => iblk0_1_apply V c t y) y _ ?_ ?_
  · show win0_3.index t (0 : Fin 2) * 512 + 1 * (y 0).val = _; rw [e0]; omega
  · show win0_3.index t (1 : Fin 2) * 1024 + 1 * (y 1).val = _; rw [e1]; omega

/-- WHAT POINT `t` WRITES BACK through window 4 is block `t` of `rowbiasOf` of the entry contents. -/
theorem flushed0_4 (c : Dev nD) (t : Fin cfg0.N) :
    (dat0 V c).flushed 4 t = ((cfg0.win 4).blk t).view.read (Elt Ideal) (rowbiasOf (V c main_arg0) (V c main_v1) (V c main_v4)) := by
  obtain ⟨-, -, -, -, -, -, -, -, e0, e1⟩ := idx_facts t
  show (cfg0.win 4).cut (grid0.coords t) ((dat0 V c).after 4 t) = _
  rw [after0_4]
  unfold out0_4
  rw [View.canon_unit_zero hz]
  simp only [View.ld_unit_zero (S := S512x1024) hz, View.ld_unit_zero (S := S1024x2048) hz, View.ld_unit_zero (S := S1x1024) hz]
  funext y
  refine pay2_point _ _ _ _ _ _ t.val (fun y i h0 h1 => iblk0_0_apply V c t y i h0 h1) (fun y => iblk0_1_apply V c t y)
    (fun y => iblk0_2_apply V c t y) y _ ?_
  show win0_4.index t (0 : Fin 2) * 512 + 1 * (y 0).val = _; rw [e0]; omega

/-- Every index of the `[8192, 1024]` array lies in the block of the point of its row block. -/
theorem cover0_3 (i : S8192x1024.Idx) : ∃ t : Fin cfg0.N, (cfg0.win 3).flush t = true ∧ i ∈ ((cfg0.win 3).blk t).view.set := by
  have hi0 : (i 0).val < 8192 := idx2_lt0 i
  have hi1 : (i 1).val < 1024 := idx2_lt1 i
  let t : Fin cfg0.N := ⟨(i 0).val / 512, by rw [show cfg0.N = 16 from N_0]; omega⟩
  obtain ⟨-, -, -, -, -, -, e0, e1, -⟩ := idx_facts t
  refine ⟨t, flush0_3 t, ?_⟩
  show i ∈ ((View.whole main_v5_0).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512
              rw [e0]; show (i 0).val / 512 * 512 ≤ (i 0).val ∧ (i 0).val < (i 0).val / 512 * 512 + 512; omega
  | ⟨1, _⟩ => show win0_3.index t (1 : Fin 2) * 1024 ≤ (i 1).val ∧ (i 1).val < win0_3.index t (1 : Fin 2) * 1024 + 1024
              rw [e1]; omega

/-- Every index of the `[8192, 1]` array likewise. -/
theorem cover0_4 (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  let t : Fin cfg0.N := ⟨(i 0).val / 512, by rw [show cfg0.N = 16 from N_0]; omega⟩
  obtain ⟨-, -, -, -, -, -, -, -, e0, e1⟩ := idx_facts t
  refine ⟨t, flush0_4 t, ?_⟩
  show i ∈ ((View.whole main_v5_1).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512
              rw [e0]; show (i 0).val / 512 * 512 ≤ (i 0).val ∧ (i 0).val < (i 0).val / 512 * 512 + 512; omega
  | ⟨1, _⟩ => show win0_4.index t (1 : Fin 2) * 1 ≤ (i 1).val ∧ (i 1).val < win0_4.index t (1 : Fin 2) * 1 + 1
              rw [e1]; omega

/-- THE ARRAYS after the region: one function each of the entry contents. -/
theorem final0_3 (c : Dev nD) : (dat0 V c).arrAt 3 cfg0.N = xbOf (V c main_arg0) (V c main_v1) :=
  (dat0 V c).arrAt_eq_of_cover 3 _ (fun t _ => flushed0_3 V c t) cover0_3

theorem final0_4 (c : Dev nD) : (dat0 V c).arrAt 4 cfg0.N = rowbiasOf (V c main_arg0) (V c main_v1) (V c main_v4) :=
  (dat0 V c).arrAt_eq_of_cover 4 _ (fun t _ => flushed0_4 V c t) cover0_4

end Cert.KernelIdeal.Reg0

end
-- ==== Proof.Region1.lean ====
/-
  What the second kernel leaves in its output array, for ANY contents `V` the buffers hold when the region is entered.

  The grid has 8 points; point `t` handles rows `512·t … 512·t + 511` of `models` (window 0), with the whole
  weight matrix `within` (window 1) and the whole row vector `otherᵀ` (window 2), and writes back rows
  `512·t …` of the column of per-model biases (window 3):
    `Σ_d (Σ_k models[r, k] · within[k, d]) · models[r, d] + Σ_d models[r, d] · otherᵀ[0, d]`.
  The 8 row blocks tile the column, so it ends as ONE function of the entry contents.
-/
import proofs.«127352_j26637387170454_2_alg».proof.Proof.Gen.KernelIdeal.Frame
import proofs.«127352_j26637387170454_2_alg».proof.Proof.Spec
import proofs.«127352_j26637387170454_2_alg».proof.Proof.Payloads
import Idealize.ShloMosaic.Lib.Pipeline.Value
import Idealize.ShloMosaic.Lib.ValueIdx

set_option maxRecDepth 16384

noncomputable section

namespace Cert.KernelIdeal.Reg1

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The per-model bias of row `r`: its quadratic form in `W` plus its product with the row vector `orow`. -/
def colbiasOf (M : Mat 4096 1024) (W : Mat 1024 1024) (orow : Mat 1 1024) : Mat 4096 1 := fun i =>
  (∑ d : Fin 1024, (∑ k : Fin 1024, M (ix2 ⟨(i 0).val, idx2_lt0 i⟩ k) * W (ix2 k d)) * M (ix2 ⟨(i 0).val, idx2_lt0 i⟩ d))
    + ∑ d : Fin 1024, M (ix2 ⟨(i 0).val, idx2_lt0 i⟩ d) * orow (ix2 (0 : Fin 1) d)

/-- The printed index maps over the 8 points: the row-blocked windows sit at block row `t`, the resident ones at 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Window 0's block at point `t` is rows `512·t …` of `models`. -/
theorem iblk1_0_apply (c : Dev nD) (t : Fin cfg1.N) (y : S512x1024.Idx) (i : S4096x1024.Idx)
    (h0 : (i 0).val = 512 * t.val + (y 0).val) (h1 : (i 1).val = (y 1).val) :
    (iblk1 V c 0 t : S512x1024.Idx → EReal) y = (V c main_arg4 : S4096x1024.Idx → EReal) i := by
  obtain ⟨e0, e1, -⟩ := idx_facts t
  unfold iblk1
  rw [View.read_apply]
  show (V c main_arg4 : S4096x1024.Idx → EReal) _ = _
  refine congrArg _ (funext fun a => Fin.ext ?_)
  match a with
  | ⟨0, _⟩ => show win1_0.index t (0 : Fin 2) * 512 + 1 * (y 0).val = (i 0).val; rw [e0, h0]; omega
  | ⟨1, _⟩ => show win1_0.index t (1 : Fin 2) * 1024 + 1 * (y 1).val = (i 1).val; rw [e1, h1]; omega

/-- Window 1's block at every point is the whole weight matrix. -/
theorem iblk1_1_apply (c : Dev nD) (t : Fin cfg1.N) (y : S1024x1024.Idx) :
    (iblk1 V c 1 t : S1024x1024.Idx → EReal) y = (V c main_v2 : S1024x1024.Idx → EReal) y := by
  obtain ⟨-, -, e0, e1, -⟩ := idx_facts t
  unfold iblk1
  rw [View.read_apply]
  show (V c main_v2 : S1024x1024.Idx → EReal) _ = _
  refine congrArg _ (funext fun a => Fin.ext ?_)
  match a with
  | ⟨0, _⟩ => show win1_1.index t (0 : Fin 2) * 1024 + 1 * (y 0).val = (y 0).val; rw [e0]; omega
  | ⟨1, _⟩ => show win1_1.index t (1 : Fin 2) * 1024 + 1 * (y 1).val = (y 1).val; rw [e1]; omega

/-- Window 2's block at every point is the whole row vector. -/
theorem iblk1_2_apply (c : Dev nD) (t : Fin cfg1.N) (y : S1x1024.Idx) :
    (iblk1 V c 2 t : S1x1024.Idx → EReal) y = (V c main_v4 : S1x1024.Idx → EReal) y := by
  obtain ⟨-, -, -, -, e0, e1, -⟩ := idx_facts t
  unfold iblk1
  rw [View.read_apply]
  show (V c main_v4 : S1x1024.Idx → EReal) _ = _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 1024 + 1 * (y 1).val = (y 1).val; rw [e1]; omega

/-- Window 3 at a point: the stored column block at `y` is `colbiasOf` at row `512·T + y₀`. -/
theorem pay1_point (x0 : Vec Ideal S512x1024 .f32) (x1 : Vec Ideal S1024x1024 .bf16) (x2 : Vec Ideal S1x1024 .f32)
    (M : Mat 4096 1024) (W : Mat 1024 1024) (orow : Mat 1 1024)
    (T : ℕ) (h0 : ∀ (y : S512x1024.Idx) (i : S4096x1024.Idx), (i 0).val = 512 * T + (y 0).val → (i 1).val = (y 1).val → x0 y = M i)
    (h1 : ∀ y : S1024x1024.Idx, x1 y = W y) (h2 : ∀ y : S1x1024.Idx, x2 y = orow y)
    (y : S512x1.Idx) (i : S4096x1.Idx) (hi0 : (i 0).val = 512 * T + (y 0).val) :
    k1_pay1 (F := Ideal) x0 x1 x2 y = colbiasOf M W orow i := by
  obtain ⟨p, u, rfl⟩ : ∃ (p : Fin 512) (u : Fin 1), y = ix2 p u := ⟨y 0, y 1, eq_ix2 y⟩
  refine (Payloads.pay1_bias x0 x1 x2 p u).trans ?_
  unfold colbiasOf
  have hx : ∀ k : Fin 1024, x0 (ix2 p k) = M (ix2 ⟨(i 0).val, idx2_lt0 i⟩ k) := fun k =>
    h0 (ix2 p k) (ix2 ⟨(i 0).val, idx2_lt0 i⟩ k) hi0 rfl
  refine congrArg₂ (· + ·) (Finset.sum_congr rfl fun d _ => ?_) (Finset.sum_congr rfl fun d _ => ?_)
  · rw [hx d]
    refine congrArg (· * _) (Finset.sum_congr rfl fun k _ => ?_)
    rw [hx k, h1]
  · rw [hx d, h2]

/-- WHAT POINT `t` WRITES BACK through window 3 is block `t` of `colbiasOf` of the entry contents. -/
theorem flushed1_3 (c : Dev nD) (t : Fin cfg1.N) :
    (dat1 V c).flushed 3 t = ((cfg1.win 3).blk t).view.read (Elt Ideal) (colbiasOf (V c main_arg4) (V c main_v2) (V c main_v4)) := by
  obtain ⟨-, -, -, -, -, -, e0, e1⟩ := idx_facts t
  show (cfg1.win 3).cut (grid1.coords t) ((dat1 V c).after 3 t) = _
  rw [after1_3]
  unfold out1_3
  rw [View.canon_unit_zero hz]
  simp only [View.ld_unit_zero (S := S512x1024) hz, View.ld_unit_zero (S := S1024x1024) hz, View.ld_unit_zero (S := S1x1024) hz]
  funext y
  refine pay1_point _ _ _ _ _ _ t.val (fun y i h0 h1 => iblk1_0_apply V c t y i h0 h1) (fun y => iblk1_1_apply V c t y)
    (fun y => iblk1_2_apply V c t y) y _ ?_
  show win1_3.index t (0 : Fin 2) * 512 + 1 * (y 0).val = _; rw [e0]; omega

/-- Every index of the `[4096, 1]` column lies in the block of the point of its row block. -/
theorem cover1_3 (i : S4096x1.Idx) : ∃ t : Fin cfg1.N, (cfg1.win 3).flush t = true ∧ i ∈ ((cfg1.win 3).blk t).view.set := by
  have hi0 : (i 0).val < 4096 := idx2_lt0 i
  have hi1 : (i 1).val < 1 := idx2_lt1 i
  let t : Fin cfg1.N := ⟨(i 0).val / 512, by rw [show cfg1.N = 8 from N_1]; omega⟩
  obtain ⟨-, -, -, -, -, -, e0, e1⟩ := idx_facts t
  refine ⟨t, flush1_3 t, ?_⟩
  show i ∈ ((View.whole main_v6).slice (win1_3.rect t)).set
  rw [View.set_slice_whole, Rect.mem_set_unit]
  intro a
  match a with
  | ⟨0, _⟩ => show win1_3.index t (0 : Fin 2) * 512 ≤ (i 0).val ∧ (i 0).val < win1_3.index t (0 : Fin 2) * 512 + 512
              rw [e0]; show (i 0).val / 512 * 512 ≤ (i 0).val ∧ (i 0).val < (i 0).val / 512 * 512 + 512; omega
  | ⟨1, _⟩ => show win1_3.index t (1 : Fin 2) * 1 ≤ (i 1).val ∧ (i 1).val < win1_3.index t (1 : Fin 2) * 1 + 1
              rw [e1]; omega

/-- THE ARRAY after the region: one function of the entry contents. -/
theorem final1_3 (c : Dev nD) : (dat1 V c).arrAt 3 cfg1.N = colbiasOf (V c main_arg4) (V c main_v2) (V c main_v4) :=
  (dat1 V c).arrAt_eq_of_cover 3 _ (fun t _ => flushed1_3 V c t) cover1_3

end Cert.KernelIdeal.Reg1

end
-- ==== Proof.Region2.lean ====
/-
  What the final kernel leaves in the result array, for ANY contents `V` the buffers hold when the region is entered.

  The grid is 8 × 8; point `t` is the pair `(t / 8, t % 8)`. It handles rows `1024·(t/8) …` of the projected batch
  `xb` (window 0) and of the row bias column (window 2), rows `512·(t%8) …` of the model matrix (window 1) and the
  same columns of the model bias row (window 3), and writes back the `1024 × 512` block at block position
  `(t/8, t%8)` of the result (window 4):
    `(2 · Σ_k xb[r, k] · mb[s, k] + rb[r, 0]) + cb[0, s]`.
  The 64 blocks tile the result, so it ends as ONE function of the entry contents.
-/
import proofs.«127352_j26637387170454_2_alg».proof.Proof.Gen.KernelIdeal.Frame
import proofs.«127352_j26637387170454_2_alg».proof.Proof.Spec
import proofs.«127352_j26637387170454_2_alg».proof.Proof.Payloads
import Idealize.ShloMosaic.Lib.Pipeline.Value
import Idealize.ShloMosaic.Lib.ValueIdx

set_option maxRecDepth 16384

noncomputable section

namespace Cert.KernelIdeal.Reg2

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result from the projected batch `XB`, the model matrix `Mb`, the row bias column and the model bias row. -/
def outOf (XB : Mat 8192 1024) (Mb : Mat 4096 1024) (rb : Mat 8192 1) (cb : Mat 1 4096) : Mat 8192 4096 := fun i =>
  (two * (∑ k : Fin 1024, XB (ix2 ⟨(i 0).val, idx2_lt0 i⟩ k) * Mb (ix2 ⟨(i 1).val, idx2_lt1 i⟩ k))
      + rb (ix2 ⟨(i 0).val, idx2_lt0 i⟩ (0 : Fin 1)))
    + cb (ix2 (0 : Fin 1) ⟨(i 1).val, idx2_lt1 i⟩)

/-- The printed index maps over the 64 points. -/
theorem idx_facts : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = t.val / 8 ∧ win2_4.index t (1 : Fin 2) = t.val % 8 :=
  (by decide +kernel : ∀ t : Fin grid2.N, _)

/-- Window 0's block at point `t` is rows `1024·(t/8) …` of the projected batch. -/
theorem iblk2_0_apply (c : Dev nD) (t : Fin cfg2.N) (y : S1024x1024.Idx) (i : S8192x1024.Idx)
    (h0 : (i 0).val = 1024 * (t.val / 8) + (y 0).val) (h1 : (i 1).val = (y 1).val) :
    (iblk2 V c 0 t : S1024x1024.Idx → EReal) y = (V c main_v5_0 : S8192x1024.Idx → EReal) i := by
  obtain ⟨e0, e1, -⟩ := idx_facts t
  unfold iblk2
  rw [View.read_apply]
  show (V c main_v5_0 : S8192x1024.Idx → EReal) _ = _
  refine congrArg _ (funext fun a => Fin.ext ?_)
  match a with
  | ⟨0, _⟩ => show win2_0.index t (0 : Fin 2) * 1024 + 1 * (y 0).val = (i 0).val; rw [e0, h0]; omega
  | ⟨1, _⟩ => show win2_0.index t (1 : Fin 2) * 1024 + 1 * (y 1).val = (i 1).val; rw [e1, h1]; omega

/-- Window 1's block at point `t` is rows `512·(t%8) …` of the model matrix. -/
theorem iblk2_1_apply (c : Dev nD) (t : Fin cfg2.N) (y : S512x1024.Idx) (i : S4096x1024.Idx)
    (h0 : (i 0).val = 512 * (t.val % 8) + (y 0).val) (h1 : (i 1).val = (y 1).val) :
    (iblk2 V c 1 t : S512x1024.Idx → EReal) y = (V c main_v3 : S4096x1024.Idx → EReal) i := by
  obtain ⟨-, -, e0, e1, -⟩ := idx_facts t
  unfold iblk2
  rw [View.read_apply]
  show (V c main_v3 : S4096x1024.Idx → EReal) _ = _
  refine congrArg _ (funext fun a => Fin.ext ?_)
  match a with
  | ⟨0, _⟩ => show win2_1.index t (0 : Fin 2) * 512 + 1 * (y 0).val = (i 0).val; rw [e0, h0]; omega
  | ⟨1, _⟩ => show win2_1.index t (1 : Fin 2) * 1024 + 1 * (y 1).val = (i 1).val; rw [e1, h1]; omega

/-- Window 2's block at point `t` is rows `1024·(t/8) …` of the row bias column. -/
theorem iblk2_2_apply (c : Dev nD) (t : Fin cfg2.N) (y : S1024x1.Idx) (i : S8192x1.Idx)
    (h0 : (i 0).val = 1024 * (t.val / 8) + (y 0).val) (h1 : (i 1).val = (y 1).val) :
    (iblk2 V c 2 t : S1024x1.Idx → EReal) y = (V c main_v5_1 : S8192x1.Idx → EReal) i := by
  obtain ⟨-, -, -, -, e0, e1, -⟩ := idx_facts t
  unfold iblk2
  rw [View.read_apply]
  show (V c main_v5_1 : S8192x1.Idx → EReal) _ = _
  refine congrArg _ (funext fun a => Fin.ext ?_)
  match a with
  | ⟨0, _⟩ => show win2_2.index t (0 : Fin 2) * 1024 + 1 * (y 0).val = (i 0).val; rw [e0, h0]; omega
  | ⟨1, _⟩ => show win2_2.index t (1 : Fin 2) * 1 + 1 * (y 1).val = (i 1).val; rw [e1, h1]; omega

/-- Window 3's block at point `t` is columns `512·(t%8) …` of the model bias row. -/
theorem iblk2_3_apply (c : Dev nD) (t : Fin cfg2.N) (y : S1x512.Idx) (i : S1x4096.Idx)
    (h0 : (i 0).val = (y 0).val) (h1 : (i 1).val = 512 * (t.val % 8) + (y 1).val) :
    (iblk2 V c 3 t : S1x512.Idx → EReal) y = (V c main_v8 : S1x4096.Idx → EReal) i := by
  obtain ⟨-, -, -, -, -, -, e0, e1, -⟩ := idx_facts t
  unfold iblk2
  rw [View.read_apply]
  show (V c main_v8 : S1x4096.Idx → EReal) _ = _
  refine congrArg _ (funext fun a => Fin.ext ?_)
  match a with
  | ⟨0, _⟩ => show win2_3.index t (0 : Fin 2) * 1 + 1 * (y 0).val = (i 0).val; rw [e0, h0]; omega
  | ⟨1, _⟩ => show win2_3.index t (1 : Fin 2) * 512 + 1 * (y 1).val = (i 1).val; rw [e1, h1]; omega

/-- Window 4 at a point: the stored block at `y` is `outOf` at row `1024·A + y₀`, column `512·B + y₁`. -/
theorem pay_point (x0 : Vec Ideal S1024x1024 .bf16) (x1 : Vec Ideal S512x1024 .bf16) (x2 : Vec Ideal S1024x1 .f32) (x3 : Vec Ideal S1x512 .f32)
    (XB : Mat 8192 1024) (Mb : Mat 4096 1024) (rb : Mat 8192 1) (cb : Mat 1 4096) (A B : ℕ)
    (h0 : ∀ (y : S1024x1024.Idx) (i : S8192x1024.Idx), (i 0).val = 1024 * A + (y 0).val → (i 1).val = (y 1).val → x0 y = XB i)
    (h1 : ∀ (y : S512x1024.Idx) (i : S4096x1024.Idx), (i 0).val = 512 * B + (y 0).val → (i 1).val = (y 1).val → x1 y = Mb i)
    (h2 : ∀ (y : S1024x1.Idx) (i : S8192x1.Idx), (i 0).val = 1024 * A + (y 0).val → (i 1).val = (y 1).val → x2 y = rb i)
    (h3 : ∀ (y : S1x512.Idx) (i : S1x4096.Idx), (i 0).val = (y 0).val → (i 1).val = 512 * B + (y 1).val → x3 y = cb i)
    (y : S1024x512.Idx) (i : S8192x4096.Idx) (hi0 : (i 0).val = 1024 * A + (y 0).val) (hi1 : (i 1).val = 512 * B + (y 1).val) :
    k2_pay1 (F := Ideal) x0 x1 x2 x3 y = outOf XB Mb rb cb i := by
  obtain ⟨p, q, rfl⟩ : ∃ (p : Fin 1024) (q : Fin 512), y = ix2 p q := ⟨y 0, y 1, eq_ix2 y⟩
  refine (Payloads.pay2_out x0 x1 x2 x3 p q).trans ?_
  unfold outOf two
  refine congrArg₂ (· + ·) (congrArg₂ (· + ·) (congrArg (_ * ·) (Finset.sum_congr rfl fun k _ => ?_)) ?_) ?_
  · rw [h0 (ix2 p k) (ix2 ⟨(i 0).val, idx2_lt0 i⟩ k) hi0 rfl, h1 (ix2 q k) (ix2 ⟨(i 1).val, idx2_lt1 i⟩ k) hi1 rfl]
  · exact h2 (ix2 p (0 : Fin 1)) (ix2 ⟨(i 0).val, idx2_lt0 i⟩ (0 : Fin 1)) hi0 rfl
  · exact h3 (ix2 (0 : Fin 1) q) (ix2 (0 : Fin 1) ⟨(i 1).val, idx2_lt1 i⟩) rfl hi1

/-- WHAT POINT `t` WRITES BACK through window 4 is block `t` of `outOf` of the entry contents. -/
theorem flushed2_4 (c : Dev nD) (t : Fin cfg2.N) :
    (dat2 V c).flushed 4 t = ((cfg2.win 4).blk t).view.read (Elt Ideal)
      (outOf (V c main_v5_0) (V c main_v3) (V c main_v5_1) (V c main_v8)) := by
  obtain ⟨-, -, -, -, -, -, -, -, e0, e1⟩ := idx_facts t
  show (cfg2.win 4).cut (grid2.coords t) ((dat2 V c).after 4 t) = _
  rw [after2_4]
  unfold out2_4
  rw [View.canon_unit_zero hz]
  simp only [View.ld_unit_zero (S := S1024x1024) hz, View.ld_unit_zero (S := S512x1024) hz, View.ld_unit_zero (S := S1024x1) hz,
    View.ld_unit_zero (S := S1x512) hz]
  funext y
  refine pay_point _ _ _ _ _ _ _ _ (t.val / 8) (t.val % 8) (fun y i h0 h1 => iblk2_0_apply V c t y i h0 h1)
    (fun y i h0 h1 => iblk2_1_apply V c t y i h0 h1) (fun y i h0 h1 => iblk2_2_apply V c t y i h0 h1)
    (fun y i h0 h1 => iblk2_3_apply V c t y i h0 h1) y _ ?_ ?_
  · show win2_4.index t (0 : Fin 2) * 1024 + 1 * (y 0).val = _; rw [e0]; omega
  · show win2_4.index t (1 : Fin 2) * 512 + 1 * (y 1).val = _; rw [e1]; omega

/-- Every index of the result lies in the block of the point of its row block and column block. -/
theorem cover2_4 (i : S8192x4096.Idx) : ∃ t : Fin cfg2.N, (cfg2.win 4).flush t = true ∧ i ∈ ((cfg2.win 4).blk t).view.set := by
  have hi0 : (i 0).val < 8192 := idx2_lt0 i
  have hi1 : (i 1).val < 4096 := idx2_lt1 i
  let t : Fin cfg2.N := ⟨(i 0).val / 1024 * 8 + (i 1).val / 512, by rw [show cfg2.N = 64 from N_2]; omega⟩
  obtain ⟨-, -, -, -, -, -, -, -, e0, e1⟩ := idx_facts t
  refine ⟨t, flush2_4 t, ?_⟩
  show i ∈ ((View.whole main_v9).slice (win2_4.rect t)).set
  rw [View.set_slice_whole, Rect.mem_set_unit]
  intro a
  match a with
  | ⟨0, _⟩ => show win2_4.index t (0 : Fin 2) * 1024 ≤ (i 0).val ∧ (i 0).val < win2_4.index t (0 : Fin 2) * 1024 + 1024
              rw [e0]
              show ((i 0).val / 1024 * 8 + (i 1).val / 512) / 8 * 1024 ≤ (i 0).val ∧ (i 0).val < ((i 0).val / 1024 * 8 + (i 1).val / 512) / 8 * 1024 + 1024
              omega
  | ⟨1, _⟩ => show win2_4.index t (1 : Fin 2) * 512 ≤ (i 1).val ∧ (i 1).val < win2_4.index t (1 : Fin 2) * 512 + 512
              rw [e1]
              show ((i 0).val / 1024 * 8 + (i 1).val / 512) % 8 * 512 ≤ (i 1).val ∧ (i 1).val < ((i 0).val / 1024 * 8 + (i 1).val / 512) % 8 * 512 + 512
              omega

/-- THE RESULT after the region: one function of the entry contents. -/
theorem final2_4 (c : Dev nD) : (dat2 V c).arrAt 4 cfg2.N = outOf (V c main_v5_0) (V c main_v3) (V c main_v5_1) (V c main_v8) :=
  (dat2 V c).arrAt_eq_of_cover 4 _ (fun t _ => flushed2_4 V c t) cover2_4

end Cert.KernelIdeal.Reg2

end
-- ==== Proof.HostOps.lean ====
/-
  What the buffers hold at each boundary between the five segments of the idealized kernel program, buffer by buffer.

  Before the first region the host writes: `wcat`, the two weight matrices side by side (then narrowed, which
  changes no extended real); `within` and `models` narrowed; `otherᵀ`, the column vector as a row. A region
  changes only its own output arrays; every other buffer keeps what it held. Between the second and the last region
  the host recasts the column of per-model biases `[4096, 1]` as a vector and then as a row `[1, 4096]`.
-/
import proofs.«127352_j26637387170454_2_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch of host operations -/

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

/-- The two weight matrices side by side, narrowed. -/
theorem W1_v1 (c : Dev nD) : W1 m ρ c (Proc.devRef .tc main_v1)
    = truncf .bf16 (concatenate S1024x2048 1 [⟨S1024x1024, m ((c : Thread nD τ).loc main_arg1)⟩,
        ⟨S1024x1024, m ((c : Thread nD τ).loc main_arg2)⟩] concatenates_S1024x1024_S1024x1024_S1024x2048_d1) bitsLt_bf16_f32 := by
  show StableHlo.after hostOps0 (W0 m ρ c) (Proc.devRef .tc main_v1) = _
  after_results

theorem W1_v2 (c : Dev nD) : W1 m ρ c (Proc.devRef .tc main_v2)
    = truncf .bf16 (m ((c : Thread nD τ).loc main_arg1)) bitsLt_bf16_f32 := by
  show StableHlo.after hostOps0 (W0 m ρ c) (Proc.devRef .tc main_v2) = _
  after_results

theorem W1_v3 (c : Dev nD) : W1 m ρ c (Proc.devRef .tc main_v3)
    = truncf .bf16 (m ((c : Thread nD τ).loc main_arg4)) bitsLt_bf16_f32 := by
  show StableHlo.after hostOps0 (W0 m ρ c) (Proc.devRef .tc main_v3) = _
  after_results

theorem W1_v4 (c : Dev nD) : W1 m ρ c (Proc.devRef .tc main_v4)
    = transpose S1x1024 [1, 0] (m ((c : Thread nD τ).loc main_arg3)) transposes_S1024x1_S1x1024_1_0 := by
  show StableHlo.after hostOps0 (W0 m ρ c) (Proc.devRef .tc main_v4) = _
  after_results

/-! ## After the first region: its two outputs at what its write-backs leave, the rest kept -/

theorem W2_v5_0 (c : Dev nD) : W2 m ρ c (Proc.devRef .tc main_v5_0) = (dat0 (V1 m ρ) c).arrAt 3 cfg0.N := W2_arr m ρ c 3
theorem W2_v5_1 (c : Dev nD) : W2 m ρ c (Proc.devRef .tc main_v5_1) = (dat0 (V1 m ρ) c).arrAt 4 cfg0.N := W2_arr m ρ c 4
theorem W2_arg4 (c : Dev nD) : W2 m ρ c (Proc.devRef .tc main_arg4) = W1 m ρ c (Proc.devRef .tc main_arg4) := W2_of_ne m ρ c main_arg4 (by decide)
theorem W2_v2 (c : Dev nD) : W2 m ρ c (Proc.devRef .tc main_v2) = W1 m ρ c (Proc.devRef .tc main_v2) := W2_of_ne m ρ c main_v2 (by decide)
theorem W2_v3 (c : Dev nD) : W2 m ρ c (Proc.devRef .tc main_v3) = W1 m ρ c (Proc.devRef .tc main_v3) := W2_of_ne m ρ c main_v3 (by decide)
/-- An input array of the first region is left as entered. -/
theorem W2_v4 (c : Dev nD) : W2 m ρ c (Proc.devRef .tc main_v4) = W1 m ρ c (Proc.devRef .tc main_v4) :=
  (W2_arr m ρ c 2).trans (((dat0 (V1 m ρ) c).arrAt_in 2 rfl _).trans (A_eq0 (V1 m ρ) c 2))

/-! ## After the second region -/

theorem W3_v6 (c : Dev nD) : W3 m ρ c (Proc.devRef .tc main_v6) = (dat1 (V2 m ρ) c).arrAt 3 cfg1.N := W3_arr m ρ c 3
theorem W3_v5_0 (c : Dev nD) : W3 m ρ c (Proc.devRef .tc main_v5_0) = W2 m ρ c (Proc.devRef .tc main_v5_0) := W3_of_ne m ρ c main_v5_0 (by decide)
theorem W3_v5_1 (c : Dev nD) : W3 m ρ c (Proc.devRef .tc main_v5_1) = W2 m ρ c (Proc.devRef .tc main_v5_1) := W3_of_ne m ρ c main_v5_1 (by decide)
theorem W3_v3 (c : Dev nD) : W3 m ρ c (Proc.devRef .tc main_v3) = W2 m ρ c (Proc.devRef .tc main_v3) := W3_of_ne m ρ c main_v3 (by decide)

/-! ## After the second stretch of host operations -/

theorem W4_v5_0 (c : Dev nD) : W4 m ρ c (Proc.devRef .tc main_v5_0) = W3 m ρ c (Proc.devRef .tc main_v5_0) := by
  show StableHlo.after hostOps2 (W3 m ρ c) (Proc.devRef .tc main_v5_0) = _
  after_results

theorem W4_v5_1 (c : Dev nD) : W4 m ρ c (Proc.devRef .tc main_v5_1) = W3 m ρ c (Proc.devRef .tc main_v5_1) := by
  show StableHlo.after hostOps2 (W3 m ρ c) (Proc.devRef .tc main_v5_1) = _
  after_results

theorem W4_v3 (c : Dev nD) : W4 m ρ c (Proc.devRef .tc main_v3) = W3 m ρ c (Proc.devRef .tc main_v3) := by
  show StableHlo.after hostOps2 (W3 m ρ c) (Proc.devRef .tc main_v3) = _
  after_results

/-- The bias column recast as a vector, then laid out as a row. -/
theorem W4_v8 (c : Dev nD) : W4 m ρ c (Proc.devRef .tc main_v8)
    = broadcastInDim S1x4096 ![1] bcast_S4096_S1x4096_1
        (shapeCast S4096 (W3 m ρ c (Proc.devRef .tc main_v6)) shapeCasts_S4096x1_S4096) := by
  show StableHlo.after hostOps2 (W3 m ρ c) (Proc.devRef .tc main_v8) = _
  after_results
  rfl

/-! ## After the last region -/

theorem W5_v9 (c : Dev nD) : W5 m ρ c (Proc.devRef .tc main_v9) = (dat2 (V4 m ρ) c).arrAt 4 cfg2.N := W5_arr m ρ c 4

end Cert.KernelIdeal.Host

end
-- ==== Proof.Layout.lean ====
/-
  The host's layout operations of the idealized kernel program, read at an index written by coordinates, over the
  extended reals: the left and right halves of two matrices laid side by side, a column vector transposed to a row,
  and a column `[4096, 1]` recast as a vector and laid out as a row `[1, 4096]`. A narrowing of the float format
  changes no extended real.
-/
import proofs.«127352_j26637387170454_2_alg».proof.Proof.Gen.KernelIdeal
import proofs.«127352_j26637387170454_2_alg».proof.Proof.Spec
import Idealize.ShloMosaic.Lib.ValueLayout
import Idealize.ShloMosaic.Lib.ValueIdx
import Idealize.ShloMosaic.Lib.Pipeline.Value

noncomputable section

namespace Cert.KernelIdeal.Layout

open Cert.KernelIdeal Cert.KernelIdeal.Gen Cert.Spec
open Idealize.ShloMosaic Idealize.ShloMosaic.ValueIdx

/-- The two weight matrices side by side, narrowed. -/
def wcat (a1 a2 : Mat 1024 1024) : Mat 1024 2048 :=
  (truncf .bf16 (concatenate S1024x2048 1 [⟨S1024x1024, a1⟩, ⟨S1024x1024, a2⟩] concatenates_S1024x1024_S1024x1024_S1024x2048_d1 :
    FVec Ideal S1024x2048 .f32) bitsLt_bf16_f32 : FVec Ideal S1024x2048 .bf16)

/-- Its left half is the first matrix. -/
theorem wcat_left (a1 a2 : Mat 1024 1024) (k d : Fin 1024) :
    wcat a1 a2 (ix2 k (⟨d.val, by omega⟩ : Fin 2048)) = a1 (ix2 k d) := by
  unfold wcat
  refine (truncf_apply (ψ := .bf16) (φ := .f32) _ bitsLt_bf16_f32 _).trans ?_
  refine concatenate_pair_apply_left (t := S1024x2048) (s₁ := S1024x1024) (s₂ := S1024x1024) (1 : Fin 2) a1 a2 concatenates_S1024x1024_S1024x1024_S1024x2048_d1 _ rfl (ix2 k d) fun b => ?_
  match b with
  | ⟨0, _⟩ => rfl
  | ⟨1, _⟩ => rfl

/-- Its right half is the second matrix. -/
theorem wcat_right (a1 a2 : Mat 1024 1024) (k d : Fin 1024) :
    wcat a1 a2 (ix2 k (⟨1024 + d.val, by omega⟩ : Fin 2048)) = a2 (ix2 k d) := by
  unfold wcat
  refine (truncf_apply (ψ := .bf16) (φ := .f32) _ bitsLt_bf16_f32 _).trans ?_
  refine concatenate_pair_apply_right (t := S1024x2048) (s₁ := S1024x1024) (s₂ := S1024x1024) (1 : Fin 2) a1 a2 concatenates_S1024x1024_S1024x1024_S1024x2048_d1 _ rfl rfl (ix2 k d)
    (fun b hb => ?_) ?_
  · match b with
    | ⟨0, _⟩ => rfl
    | ⟨1, _⟩ => exact absurd rfl hb
  · show d.val + 1024 = 1024 + d.val
    omega

/-- A `[1024, 1024]` matrix narrowed to the shorter float format: the same extended reals. -/
def narrowW (a : Mat 1024 1024) : Mat 1024 1024 :=
  (truncf .bf16 (a : FVec Ideal S1024x1024 .f32) bitsLt_bf16_f32 : FVec Ideal S1024x1024 .bf16)

theorem narrowW_apply (a : Mat 1024 1024) (i : S1024x1024.Idx) : narrowW a i = a i := rfl

/-- A `[4096, 1024]` matrix narrowed likewise. -/
def narrowM (a : Mat 4096 1024) : Mat 4096 1024 :=
  (truncf .bf16 (a : FVec Ideal S4096x1024 .f32) bitsLt_bf16_f32 : FVec Ideal S4096x1024 .bf16)

theorem narrowM_apply (a : Mat 4096 1024) (i : S4096x1024.Idx) : narrowM a i = a i := rfl

/-- The column vector as a row. -/
def orow (a3 : Mat 1024 1) : Mat 1 1024 :=
  transpose S1x1024 [1, 0] a3 transposes_S1024x1_S1x1024_1_0

theorem orow_apply (a3 : Mat 1024 1) (d : Fin 1024) : orow a3 (ix2 (0 : Fin 1) d) = a3 (ix2 d (0 : Fin 1)) :=
  transpose_ix2_apply a3 transposes_S1024x1_S1x1024_1_0 (0 : Fin 1) d

/-- A column `[4096, 1]` recast as a vector and laid out as a row. -/
def asRow (col : Mat 4096 1) : Mat 1 4096 :=
  broadcastInDim S1x4096 ![1] bcast_S4096_S1x4096_1 (shapeCast S4096 col shapeCasts_S4096x1_S4096)

theorem asRow_apply (col : Mat 4096 1) (o : Fin 4096) : asRow col (ix2 (0 : Fin 1) o) = col (ix2 o (0 : Fin 1)) := by
  unfold asRow
  refine (broadcastInDim_apply _ bcast_S4096_S1x4096_1 _ (ix2 (0 : Fin 1) o) (ix1 o) fun a => ?_).trans ?_
  · match a with
    | ⟨0, _⟩ => show o.val = if (4096 : ℕ) = 1 then 0 else o.val; rw [if_neg (by decide)]
  · refine shapeCast_apply col shapeCasts_S4096x1_S4096 (ix1 o) (ix2 o (0 : Fin 1)) ?_
    rw [Shape.rowMajor_val_two, Shape.rowMajor_val_one]
    show o.val * 1 + 0 = o.val
    omega

end Cert.KernelIdeal.Layout

end
-- ==== Proof.Chain.lean ====
/-
  The result array of the idealized kernel program is the specification `G` of the five argument arrays.

  Reading the fold of buffer contents backwards from the result: the last region leaves `outOf` of four arrays —
  the projected batch and the row bias column (the first region's outputs, from `x`, the concatenated weights and
  `otherᵀ`), the narrowed `models`, and the model bias row (the second region's output column, from `models`, the
  narrowed `within` and `otherᵀ`, recast as a row). Substituting what the host wrote — the right half of the
  concatenation is `between`, the left half `within`, `otherᵀ[0, d] = other[d, 0]` — gives, entry by entry,
  `(2 · cross + bias of the batch row) + bias of the model row`.
-/
import proofs.«127352_j26637387170454_2_alg».proof.Proof.Region0
import proofs.«127352_j26637387170454_2_alg».proof.Proof.Region1
import proofs.«127352_j26637387170454_2_alg».proof.Proof.Region2
import proofs.«127352_j26637387170454_2_alg».proof.Proof.HostOps
import proofs.«127352_j26637387170454_2_alg».proof.Proof.Layout

noncomputable section

namespace Cert.KernelIdeal.Chain

open Cert.KernelIdeal Cert.KernelIdeal.Gen Cert.Spec Cert.KernelIdeal.Layout
open Cert.KernelIdeal.Reg0 (xbOf rowbiasOf)
open Cert.KernelIdeal.Reg1 (colbiasOf)
open Cert.KernelIdeal.Reg2 (outOf)
open Idealize.ShloMosaic Idealize.ShloMosaic.TcCoe Idealize.ShloMosaic.ValueIdx Idealize.SL.Sem

/-- The row bias of the first region is the specification's bias of the batch row. -/
theorem rowbias_eq (a0 : Mat 8192 1024) (a1 a2 : Mat 1024 1024) (a3 : Mat 1024 1) (b : Fin 8192) :
    rowbiasOf a0 (wcat a1 a2) (orow a3) (ix2 b (0 : Fin 1)) = bias a0 a1 a3 b := by
  unfold rowbiasOf bias quad lin rowProd
  refine congrArg₂ (· + ·) (Finset.sum_congr rfl fun d _ => ?_) (Finset.sum_congr rfl fun d _ => ?_)
  · refine congrArg (· * _) (Finset.sum_congr rfl fun k _ => ?_)
    exact congrArg (_ * ·) (wcat_left a1 a2 k d)
  · exact congrArg (_ * ·) (orow_apply a3 d)

/-- The bias column of the second region is the specification's bias of the model row. -/
theorem colbias_eq (a4 : Mat 4096 1024) (a1 : Mat 1024 1024) (a3 : Mat 1024 1) (Wb : Mat 1024 1024)
    (hw : ∀ i, Wb i = a1 i) (o : Fin 4096) :
    colbiasOf a4 Wb (orow a3) (ix2 o (0 : Fin 1)) = bias a4 a1 a3 o := by
  unfold colbiasOf bias quad lin rowProd
  refine congrArg₂ (· + ·) (Finset.sum_congr rfl fun d _ => ?_) (Finset.sum_congr rfl fun d _ => ?_)
  · refine congrArg (· * _) (Finset.sum_congr rfl fun k _ => ?_)
    exact congrArg (_ * ·) (hw _)
  · exact congrArg (_ * ·) (orow_apply a3 d)

/-- The projected batch of the first region is `x · between`. -/
theorem xb_eq (a0 : Mat 8192 1024) (a1 a2 : Mat 1024 1024) (b : Fin 8192) (d : Fin 1024) :
    xbOf a0 (wcat a1 a2) (ix2 b d) = rowProd a0 a2 b d := by
  unfold xbOf rowProd
  refine Finset.sum_congr rfl fun k _ => ?_
  exact congrArg (_ * ·) (wcat_right a1 a2 k d)

/-- The last region's result, with what the earlier segments left substituted, is `G`. -/
theorem assemble (a0 : Mat 8192 1024) (a1 a2 : Mat 1024 1024) (a3 : Mat 1024 1) (a4 : Mat 4096 1024)
    (Wb : Mat 1024 1024) (Mb : Mat 4096 1024) (hw : ∀ i, Wb i = a1 i) (hm : ∀ i, Mb i = a4 i) :
    outOf (xbOf a0 (wcat a1 a2)) Mb (rowbiasOf a0 (wcat a1 a2) (orow a3)) (asRow (colbiasOf a4 Wb (orow a3)))
      = G a0 a1 a2 a3 a4 := by
  funext j
  obtain ⟨b, o, rfl⟩ : ∃ (b : Fin 8192) (o : Fin 4096), j = ix2 b o := ⟨j 0, j 1, eq_ix2 j⟩
  rw [G_ix2]
  unfold outOf kerAt cross
  refine congrArg₂ (· + ·) (congrArg₂ (· + ·) (congrArg (two * ·) (Finset.sum_congr rfl fun k _ => ?_)) ?_) ?_
  · exact congrArg₂ (· * ·) (xb_eq a0 a1 a2 b k) (hm _)
  · exact rowbias_eq a0 a1 a2 a3 b
  · exact (asRow_apply _ o).trans (colbias_eq a4 a1 a3 Wb hw o)

variable (m : (ℓ : Loc nD τ sig) → Buf (Elt Ideal) ℓ) (ρ : Dev nD → PrngReg)

/-- The concatenated weights as the first region finds them. -/
theorem V1_v1 (c : Dev nD) : V1 m ρ c main_v1 = wcat (m ((c : Thread nD τ).loc main_arg1)) (m ((c : Thread nD τ).loc main_arg2)) :=
  Host.W1_v1 m ρ c

/-- The row vector as the first region finds it. -/
theorem V1_v4 (c : Dev nD) : V1 m ρ c main_v4 = orow (m ((c : Thread nD τ).loc main_arg3)) := Host.W1_v4 m ρ c

/-- The projected batch when the last region is entered. -/
theorem V4_v5_0 (c : Dev nD) : V4 m ρ c main_v5_0
    = xbOf (m ((c : Thread nD τ).loc main_arg0)) (wcat (m ((c : Thread nD τ).loc main_arg1)) (m ((c : Thread nD τ).loc main_arg2))) :=
  (Host.W4_v5_0 m ρ c).trans ((Host.W3_v5_0 m ρ c).trans ((Host.W2_v5_0 m ρ c).trans ((Reg0.final0_3 (V1 m ρ) c).trans
    (congrArg₂ xbOf (Host.W1_arg0 m ρ c) (V1_v1 m ρ c)))))

/-- The row bias column when the last region is entered. -/
theorem V4_v5_1 (c : Dev nD) : V4 m ρ c main_v5_1
    = rowbiasOf (m ((c : Thread nD τ).loc main_arg0)) (wcat (m ((c : Thread nD τ).loc main_arg1)) (m ((c : Thread nD τ).loc main_arg2)))
        (orow (m ((c : Thread nD τ).loc main_arg3))) :=
  (Host.W4_v5_1 m ρ c).trans ((Host.W3_v5_1 m ρ c).trans ((Host.W2_v5_1 m ρ c).trans ((Reg0.final0_4 (V1 m ρ) c).trans
    (by rw [show V1 m ρ c main_arg0 = m ((c : Thread nD τ).loc main_arg0) from Host.W1_arg0 m ρ c, V1_v1 m ρ c, V1_v4 m ρ c]))))

/-- The narrowed `models` when the last region is entered. -/
theorem V4_v3 (c : Dev nD) : V4 m ρ c main_v3 = narrowM (m ((c : Thread nD τ).loc main_arg4)) :=
  (Host.W4_v3 m ρ c).trans ((Host.W3_v3 m ρ c).trans ((Host.W2_v3 m ρ c).trans (Host.W1_v3 m ρ c)))

/-- The bias column the second region leaves. -/
theorem W3_v6 (c : Dev nD) : W3 m ρ c (Proc.devRef .tc main_v6)
    = colbiasOf (m ((c : Thread nD τ).loc main_arg4)) (narrowW (m ((c : Thread nD τ).loc main_arg1)))
        (orow (m ((c : Thread nD τ).loc main_arg3))) :=
  (Host.W3_v6 m ρ c).trans ((Reg1.final1_3 (V2 m ρ) c).trans (by
    rw [show V2 m ρ c main_arg4 = m ((c : Thread nD τ).loc main_arg4) from (Host.W2_arg4 m ρ c).trans (Host.W1_arg4 m ρ c),
      show V2 m ρ c main_v2 = narrowW (m ((c : Thread nD τ).loc main_arg1)) from (Host.W2_v2 m ρ c).trans (Host.W1_v2 m ρ c),
      show V2 m ρ c main_v4 = orow (m ((c : Thread nD τ).loc main_arg3)) from (Host.W2_v4 m ρ c).trans (Host.W1_v4 m ρ c)]))

/-- The model bias row when the last region is entered. -/
theorem V4_v8 (c : Dev nD) : V4 m ρ c main_v8
    = asRow (colbiasOf (m ((c : Thread nD τ).loc main_arg4)) (narrowW (m ((c : Thread nD τ).loc main_arg1)))
        (orow (m ((c : Thread nD τ).loc main_arg3)))) :=
  (Host.W4_v8 m ρ c).trans (congrArg asRow (W3_v6 m ρ c))

/-- THE RESULT: when the last region is left, the result buffer holds `G` of the argument arrays. -/
theorem result_eq (c : Dev nD) : W5 m ρ c (Proc.devRef .tc main_v9)
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (Host.W5_v9 m ρ c).trans ((Reg2.final2_4 (V4 m ρ) c).trans ?_)
  rw [V4_v5_0 m ρ c, V4_v3 m ρ c, V4_v5_1 m ρ c, V4_v8 m ρ c]
  exact assemble _ _ _ _ _ _ _ (fun i => narrowW_apply _ i) (fun i => narrowM_apply _ i)

end Cert.KernelIdeal.Chain

end
-- ==== Proof.RefValue.lean ====
/-
  The reference's result array is the specification `G`.

  The reference program is read one operation at a time by the generated module `Read`; each operation's value at
  an index written by coordinates is identified here with the named quantity of `Spec` it computes:
    the products `x·within`, `models·within`, `x·between` at `(r, d)` are `rowProd`;
    the two row sums (initial value `0` plus the sum) are `quad`;
    the two products against the column vector `other` are `lin`;
    the contraction of `2·(x·between)` with the transposed `models` is the cross sum of `refAt`.
  The broadcasts and transposes only move indices. Assembled, the result at `(b, o)` is `refAt`, which `Spec` shows
  equal to `kerAt`, the value of `G` there.
-/
import proofs.«127352_j26637387170454_2_alg».proof.Proof.Gen.ReferenceIdeal.Read
import proofs.«127352_j26637387170454_2_alg».proof.Proof.Spec
import Idealize.ShloMosaic.Lib.ValueIdx
import Idealize.ShloMosaic.PureOps.Ideal.Laws
noncomputable section
namespace Cert.ReferenceIdeal.RefValue
open Idealize.ShloMosaic Idealize.ShloMosaic.ValueIdx Cert.ReferenceIdeal Cert.ReferenceIdeal.Read

/-- A rank-2 index with coordinates `a` and `b` is `ix2 a b`. -/
theorem idx2_eq {n0 n1 : ℕ} (f : (⟨2, ![n0, n1]⟩ : Shape).Idx) (a : Fin n0) (b : Fin n1)
    (h0 : f 0 = a) (h1 : f 1 = b) : f = ix2 a b := by
  funext d
  match d with
  | ⟨0, _⟩ => exact h0
  | ⟨1, _⟩ => exact h1

/-- A rank-1 index with coordinate `a` is `ix1 a`. -/
theorem idx1_eq {n0 : ℕ} (f : (⟨1, ![n0]⟩ : Shape).Idx) (a : Fin n0) (h0 : f 0 = a) : f = ix1 a := by
  funext d
  match d with
  | ⟨0, _⟩ => exact h0

variable (x0 : (⟨S8192x1024, .f32⟩ : BufTy).Contents (Elt Ideal))
  (x1 x2 : (⟨S1024x1024, .f32⟩ : BufTy).Contents (Elt Ideal))
  (x3 : (⟨S1024x1, .f32⟩ : BufTy).Contents (Elt Ideal))
  (x4 : (⟨S4096x1024, .f32⟩ : BufTy).Contents (Elt Ideal))

/-! ## The quadratic form of a row of `x` -/

/-- `(x·within)[b, d]`. -/
theorem v0_at (b : Fin 8192) (d : Fin 1024) :
    val_main_v0 (F := Ideal) x0 x1 (ix2 b d) = Cert.Spec.rowProd x0 x1 b d := by
  refine (val_main_v0_apply x0 x1 (ix2 b d)).trans ?_
  unfold Cert.Spec.rowProd
  refine Finset.sum_congr rfl fun k _ => ?_
  have el : lidx_main_v0 (ix2 b d) k = ix2 b k := idx2_eq _ _ _ rfl rfl
  have er : ridx_main_v0 (ix2 b d) k = ix2 k d := idx2_eq _ _ _ rfl rfl
  exact congrArg₂ (· * ·) (congrArg x0 el) (congrArg x1 er)

/-- The row sum of `(x·within) ∘ x`, started from `0`. -/
theorem v2_at (b : Fin 8192) :
    val_main_v2 (F := Ideal) x0 x1 (ix1 b) = Cert.Spec.quad x0 x1 b := by
  refine (val_main_v2_apply x0 x1 (ix1 b)).trans ?_
  have hz : val_main_cst (F := Ideal) (Shape.Idx.first Gen.h_S_) = (0 : EReal) := Ideal.ofBits_zero_f32
  refine (congrArg (· + _) hz).trans ?_
  refine (zero_add _).trans ?_
  unfold Cert.Spec.quad
  refine Finset.sum_congr rfl fun k _ => ?_
  have ei : idx_main_v2 (ix1 b) k = ix2 b k := idx2_eq _ _ _ rfl rfl
  refine (congrArg (val_main_v1 (F := Ideal) x0 x1) ei).trans ?_
  refine (val_main_v1_apply x0 x1 (ix2 b k)).trans ?_
  exact congrArg (· * x0 (ix2 b k)) (v0_at x0 x1 b k)

/-- The row sum, as a column, broadcast along the row. -/
theorem v8_at (b : Fin 8192) (o : Fin 4096) :
    val_main_v8 (F := Ideal) x0 x1 (ix2 b o) = Cert.Spec.quad x0 x1 b := by
  refine (val_main_v8_apply x0 x1 (ix2 b o)).trans ?_
  refine (val_main_v6_apply x0 x1 _).trans ?_
  have ei : idx_main_v6 (idx_main_v8 (ix2 b o)) = ix1 b := idx1_eq _ _ rfl
  exact (congrArg (val_main_v2 (F := Ideal) x0 x1) ei).trans (v2_at x0 x1 b)

/-! ## The quadratic form of a row of `models` -/

/-- `(models·within)[o, d]`. -/
theorem v3_at (o : Fin 4096) (d : Fin 1024) :
    val_main_v3 (F := Ideal) x1 x4 (ix2 o d) = Cert.Spec.rowProd x4 x1 o d := by
  refine (val_main_v3_apply x1 x4 (ix2 o d)).trans ?_
  unfold Cert.Spec.rowProd
  refine Finset.sum_congr rfl fun k _ => ?_
  have el : lidx_main_v3 (ix2 o d) k = ix2 o k := idx2_eq _ _ _ rfl rfl
  have er : ridx_main_v3 (ix2 o d) k = ix2 k d := idx2_eq _ _ _ rfl rfl
  exact congrArg₂ (· * ·) (congrArg x4 el) (congrArg x1 er)

/-- The row sum of `(models·within) ∘ models`, started from `0`. -/
theorem v5_at (o : Fin 4096) :
    val_main_v5 (F := Ideal) x1 x4 (ix1 o) = Cert.Spec.quad x4 x1 o := by
  refine (val_main_v5_apply x1 x4 (ix1 o)).trans ?_
  have hz : val_main_cst_0 (F := Ideal) (Shape.Idx.first Gen.h_S_) = (0 : EReal) := Ideal.ofBits_zero_f32
  refine (congrArg (· + _) hz).trans ?_
  refine (zero_add _).trans ?_
  unfold Cert.Spec.quad
  refine Finset.sum_congr rfl fun k _ => ?_
  have ei : idx_main_v5 (ix1 o) k = ix2 o k := idx2_eq _ _ _ rfl rfl
  refine (congrArg (val_main_v4 (F := Ideal) x1 x4) ei).trans ?_
  refine (val_main_v4_apply x1 x4 (ix2 o k)).trans ?_
  exact congrArg (· * x4 (ix2 o k)) (v3_at x1 x4 o k)

/-- The row sum, as a row vector, broadcast down the column. -/
theorem v9_at (b : Fin 8192) (o : Fin 4096) :
    val_main_v9 (F := Ideal) x1 x4 (ix2 b o) = Cert.Spec.quad x4 x1 o := by
  refine (val_main_v9_apply x1 x4 (ix2 b o)).trans ?_
  refine (val_main_v7_apply x1 x4 _).trans ?_
  have ei : idx_main_v7 (idx_main_v9 (ix2 b o)) = ix1 o := idx1_eq _ _ rfl
  exact (congrArg (val_main_v5 (F := Ideal) x1 x4) ei).trans (v5_at x1 x4 o)

/-! ## The cross term -/

/-- `(x·between)[b, d]`. -/
theorem v11_at (b : Fin 8192) (d : Fin 1024) :
    val_main_v11 (F := Ideal) x0 x2 (ix2 b d) = Cert.Spec.rowProd x0 x2 b d := by
  refine (val_main_v11_apply x0 x2 (ix2 b d)).trans ?_
  unfold Cert.Spec.rowProd
  refine Finset.sum_congr rfl fun k _ => ?_
  have el : lidx_main_v11 (ix2 b d) k = ix2 b k := idx2_eq _ _ _ rfl rfl
  have er : ridx_main_v11 (ix2 b d) k = ix2 k d := idx2_eq _ _ _ rfl rfl
  exact congrArg₂ (· * ·) (congrArg x0 el) (congrArg x2 er)

/-- The constant `2`, broadcast, times `(x·between)[b, d]`. -/
theorem v13_at (b : Fin 8192) (d : Fin 1024) :
    val_main_v13 (F := Ideal) x0 x2 (ix2 b d) = Cert.Spec.two * Cert.Spec.rowProd x0 x2 b d := by
  refine (val_main_v13_apply x0 x2 (ix2 b d)).trans ?_
  have h2 : val_main_v12 (F := Ideal) (ix2 b d) = Cert.Spec.two := val_main_v12_apply (F := Ideal) (ix2 b d)
  exact congrArg₂ (· * ·) h2 (v11_at x0 x2 b d)

/-- The transposed `models` at `(k, o)` is `models[o, k]`. -/
theorem v14_at (k : Fin 1024) (o : Fin 4096) :
    val_main_v14 (F := Ideal) x4 (ix2 k o) = x4 (ix2 o k) := by
  refine (val_main_v14_apply x4 (ix2 k o)).trans ?_
  exact congrArg x4 (idx2_eq _ _ _ rfl rfl)

/-- The contraction of `2·(x·between)` with the transposed `models`. -/
theorem v15_at (b : Fin 8192) (o : Fin 4096) :
    val_main_v15 (F := Ideal) x0 x2 x4 (ix2 b o)
      = ∑ d : Fin 1024, (Cert.Spec.two * Cert.Spec.rowProd x0 x2 b d) * x4 (ix2 o d) := by
  refine (val_main_v15_apply x0 x2 x4 (ix2 b o)).trans ?_
  refine Finset.sum_congr rfl fun k _ => ?_
  have el : lidx_main_v15 (ix2 b o) k = ix2 b k := idx2_eq _ _ _ rfl rfl
  have er : ridx_main_v15 (ix2 b o) k = ix2 k o := idx2_eq _ _ _ rfl rfl
  exact congrArg₂ (· * ·)
    ((congrArg (val_main_v13 (F := Ideal) x0 x2) el).trans (v13_at x0 x2 b k))
    ((congrArg (val_main_v14 (F := Ideal) x4) er).trans (v14_at x4 k o))

/-! ## The linear terms -/

/-- Row `b` of `x` against `other`. -/
theorem v16_at (b : Fin 8192) :
    val_main_v16 (F := Ideal) x0 x3 (ix2 b (0 : Fin 1)) = Cert.Spec.lin x0 x3 b := by
  refine (val_main_v16_apply x0 x3 (ix2 b (0 : Fin 1))).trans ?_
  unfold Cert.Spec.lin
  refine Finset.sum_congr rfl fun k _ => ?_
  have el : lidx_main_v16 (ix2 b (0 : Fin 1)) k = ix2 b k := idx2_eq _ _ _ rfl rfl
  have er : ridx_main_v16 (ix2 b (0 : Fin 1)) k = ix2 k (0 : Fin 1) := idx2_eq _ _ _ rfl rfl
  exact congrArg₂ (· * ·) (congrArg x0 el) (congrArg x3 er)

/-- The column of linear terms of `x`, broadcast along the row. -/
theorem v19_at (b : Fin 8192) (o : Fin 4096) :
    val_main_v19 (F := Ideal) x0 x3 (ix2 b o) = Cert.Spec.lin x0 x3 b := by
  refine (val_main_v19_apply x0 x3 (ix2 b o)).trans ?_
  have ei : idx_main_v19 (ix2 b o) = ix2 b (0 : Fin 1) := idx2_eq _ _ _ rfl rfl
  exact (congrArg (val_main_v16 (F := Ideal) x0 x3) ei).trans (v16_at x0 x3 b)

/-- Row `o` of `models` against `other`. -/
theorem v17_at (o : Fin 4096) :
    val_main_v17 (F := Ideal) x3 x4 (ix2 o (0 : Fin 1)) = Cert.Spec.lin x4 x3 o := by
  refine (val_main_v17_apply x3 x4 (ix2 o (0 : Fin 1))).trans ?_
  unfold Cert.Spec.lin
  refine Finset.sum_congr rfl fun k _ => ?_
  have el : lidx_main_v17 (ix2 o (0 : Fin 1)) k = ix2 o k := idx2_eq _ _ _ rfl rfl
  have er : ridx_main_v17 (ix2 o (0 : Fin 1)) k = ix2 k (0 : Fin 1) := idx2_eq _ _ _ rfl rfl
  exact congrArg₂ (· * ·) (congrArg x4 el) (congrArg x3 er)

/-- The column of linear terms of `models`, transposed to a row and broadcast down the column. -/
theorem v20_at (b : Fin 8192) (o : Fin 4096) :
    val_main_v20 (F := Ideal) x3 x4 (ix2 b o) = Cert.Spec.lin x4 x3 o := by
  refine (val_main_v20_apply x3 x4 (ix2 b o)).trans ?_
  refine (val_main_v18_apply x3 x4 _).trans ?_
  have ei : idx_main_v18 (idx_main_v20 (ix2 b o)) = ix2 o (0 : Fin 1) := idx2_eq _ _ _ rfl rfl
  exact (congrArg (val_main_v17 (F := Ideal) x3 x4) ei).trans (v17_at x3 x4 o)

/-! ## The result -/

/-- The reference's result at `(b, o)`, in the reference's own grouping. -/
theorem v23_at (b : Fin 8192) (o : Fin 4096) :
    val_main_v23 (F := Ideal) x0 x1 x2 x3 x4 (ix2 b o) = Cert.Spec.refAt x0 x1 x2 x3 x4 b o := by
  refine (val_main_v23_apply x0 x1 x2 x3 x4 (ix2 b o)).trans ?_
  unfold Cert.Spec.refAt
  refine congrArg₂ (· + ·) ?_ ?_
  · refine (val_main_v22_apply x0 x1 x2 x4 (ix2 b o)).trans ?_
    refine congrArg₂ (· + ·) ?_ (v15_at x0 x2 x4 b o)
    refine (val_main_v10_apply x0 x1 x4 (ix2 b o)).trans ?_
    exact congrArg₂ (· + ·) (v8_at x0 x1 b o) (v9_at x1 x4 b o)
  · refine (val_main_v21_apply x0 x3 x4 (ix2 b o)).trans ?_
    exact congrArg₂ (· + ·) (v19_at x0 x3 b o) (v20_at x3 x4 b o)

/-- The reference's result array is `G`. -/
theorem result_eq (x0 : (⟨S8192x1024, .f32⟩ : BufTy).Contents (Elt Ideal)) (x1 x2 : (⟨S1024x1024, .f32⟩ : BufTy).Contents (Elt Ideal)) (x3 : (⟨S1024x1, .f32⟩ : BufTy).Contents (Elt Ideal)) (x4 : (⟨S4096x1024, .f32⟩ : BufTy).Contents (Elt Ideal)) :
    val_main_v23 (F := Ideal) x0 x1 x2 x3 x4 = Cert.Spec.G x0 x1 x2 x3 x4 := by
  funext j
  obtain ⟨b, o, rfl⟩ : ∃ (b : Fin 8192) (o : Fin 4096), j = ix2 b o := ⟨j 0, j 1, eq_ix2 j⟩
  refine (v23_at x0 x1 x2 x3 x4 b o).trans ?_
  exact (Cert.Spec.refAt_eq_kerAt x0 x1 x2 x3 x4 b o).trans (Cert.Spec.G_ix2 x0 x1 x2 x3 x4 b o).symm

end Cert.ReferenceIdeal.RefValue

end
-- ==== Proof.lean ====
/-
  The kernel and its reference compute, for every batch row `b` of `x` and model row `o` of `models`,

    out[b, o] = 2 · Σ_d (x·between)[b, d] · models[o, d]
              + ( Σ_d (x·within)[b, d] · x[b, d] + Σ_k x[b, k] · other[k] )
              + ( Σ_d (models·within)[o, d] · models[o, d] + Σ_k models[o, k] · other[k] )

  over the extended reals (`Proof/Spec.lean`: the function `G`).

  The kernel program is three regions among host operations. `Proof/Payloads.lean` reads each region's stored
  payload at an index; `Proof/Region0.lean`, `Region1.lean` and `Region2.lean` turn the row blocks (and, for the
  last region, the 8 × 8 tiles) each grid point writes back into ONE function of the contents the region was entered
  with; `Proof/HostOps.lean` and `Proof/Layout.lean` read what the host operations between the regions leave;
  `Proof/KernelRun.lean` runs the whole program to the fold of these contents; `Proof/Chain.lean` substitutes them
  into one another: the result buffer ends holding `G` of the arguments.

  The reference is one straight line of host operations; `Proof/RefValue.lean` reads its generated run entry by
  entry: it computes the same terms grouped as `((quad b + quad o) + Σ_d (2·(x·between)[b, d])·models[o, d]) +
  (lin b + lin o)`. The two groupings agree on every extended real — addition there is commutative and
  associative, and the nonnegative real 2 distributes over a sum — so no finiteness of the inputs is used.

  The ideal pass rewrote nothing, so the idealization claim is trivial; the three frames are the generated ones (the
  reference's is its generated run with the result dropped).
-/
import proofs.«127352_j26637387170454_2_alg».proof.Defs
import proofs.«127352_j26637387170454_2_alg».proof.Proof.Gen.Kernel
import proofs.«127352_j26637387170454_2_alg».proof.Proof.Gen.Kernel.Frame
import proofs.«127352_j26637387170454_2_alg».proof.Proof.Gen.KernelIdeal
import proofs.«127352_j26637387170454_2_alg».proof.Proof.Gen.KernelIdeal.Frame
import proofs.«127352_j26637387170454_2_alg».proof.Proof.Gen.ReferenceIdeal
import proofs.«127352_j26637387170454_2_alg».proof.Proof.Gen.ReferenceIdeal.Run
import proofs.«127352_j26637387170454_2_alg».proof.Proof.Gen.ReferenceIdeal.Read
import proofs.«127352_j26637387170454_2_alg».proof.Proof.Gen.Pre_finite_inputs
import proofs.«127352_j26637387170454_2_alg».proof.Proof.KernelRun
import proofs.«127352_j26637387170454_2_alg».proof.Proof.Chain
import proofs.«127352_j26637387170454_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the result array at `G` of the
    arguments: the kernel by the fold through its five segments, the reference by its run read entry by entry. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
